-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S2048x1024 : Shape := ⟨2, ![2048, 1024]⟩
abbrev S1024x128 : Shape := ⟨2, ![1024, 128]⟩
abbrev S2048x128 : Shape := ⟨2, ![2048, 128]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩

abbrev nBuf : Space → Nat
  | .hbm => 18
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S8192x1024, .bf16⟩
  | .hbm, ⟨16, _⟩ => ⟨S8192x1024, .f32⟩
  | .hbm, ⟨17, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x2048x1024_S8192x1024 : S4x2048x1024.ShapeCasts S8192x1024
  bitsLt_bf16_f32 : FTy.bits .bf16 < FTy.bits .f32
  transposes_S1024x1024_S1024x1024_1_0 : S1024x1024.Transposes [1, 0] S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S2048x128_S2048x64_0_0 : ∀ a, (![0, 0] : Fin 2 → Nat) a + S2048x64.size a ≤ S2048x128.size a
  h_S2048x64 : 0 < S2048x64.numel
  inb_S2048x128_S512x64_0_0 : ∀ a, (![0, 0] : Fin 2 → Nat) a + S512x64.size a ≤ S2048x128.size a
  h_S512x64 : 0 < S512x64.numel
  reduces_S512x2048_S512 : S512x2048.Reduces [1] S512
  shapeCasts_S512_S512x1 : S512.ShapeCasts S512x1
  broadcasts_S512x1_S512x2048 : S512x1.Broadcasts S512x2048
  packedbf16_S2048x128_S512x64_0_0 : (Rect.unit (s := S2048x128) ![0, 0] S512x64.size inb_S2048x128_S512x64_0_0).PackedRows (EltTy.packing .bf16)
  inb_S2048x128_S512x64_512_0 : ∀ a, (![512, 0] : Fin 2 → Nat) a + S512x64.size a ≤ S2048x128.size a
  packedbf16_S2048x128_S512x64_512_0 : (Rect.unit (s := S2048x128) ![512, 0] S512x64.size inb_S2048x128_S512x64_512_0).PackedRows (EltTy.packing .bf16)
  inb_S2048x128_S512x64_1024_0 : ∀ a, (![1024, 0] : Fin 2 → Nat) a + S512x64.size a ≤ S2048x128.size a
  packedbf16_S2048x128_S512x64_1024_0 : (Rect.unit (s := S2048x128) ![1024, 0] S512x64.size inb_S2048x128_S512x64_1024_0).PackedRows (EltTy.packing .bf16)
  inb_S2048x128_S512x64_1536_0 : ∀ a, (![1536, 0] : Fin 2 → Nat) a + S512x64.size a ≤ S2048x128.size a
  packedbf16_S2048x128_S512x64_1536_0 : (Rect.unit (s := S2048x128) ![1536, 0] S512x64.size inb_S2048x128_S512x64_1536_0).PackedRows (EltTy.packing .bf16)
  inb_S2048x128_S2048x64_0_64 : ∀ a, (![0, 64] : Fin 2 → Nat) a + S2048x64.size a ≤ S2048x128.size a
  inb_S2048x128_S512x64_0_64 : ∀ a, (![0, 64] : Fin 2 → Nat) a + S512x64.size a ≤ S2048x128.size a
  packedbf16_S2048x128_S512x64_0_64 : (Rect.unit (s := S2048x128) ![0, 64] S512x64.size inb_S2048x128_S512x64_0_64).PackedRows (EltTy.packing .bf16)
  inb_S2048x128_S512x64_512_64 : ∀ a, (![512, 64] : Fin 2 → Nat) a + S512x64.size a ≤ S2048x128.size a
  packedbf16_S2048x128_S512x64_512_64 : (Rect.unit (s := S2048x128) ![512, 64] S512x64.size inb_S2048x128_S512x64_512_64).PackedRows (EltTy.packing .bf16)
  inb_S2048x128_S512x64_1024_64 : ∀ a, (![1024, 64] : Fin 2 → Nat) a + S512x64.size a ≤ S2048x128.size a
  packedbf16_S2048x128_S512x64_1024_64 : (Rect.unit (s := S2048x128) ![1024, 64] S512x64.size inb_S2048x128_S512x64_1024_64).PackedRows (EltTy.packing .bf16)
  inb_S2048x128_S512x64_1536_64 : ∀ a, (![1536, 64] : Fin 2 → Nat) a + S512x64.size a ≤ S2048x128.size a
  packedbf16_S2048x128_S512x64_1536_64 : (Rect.unit (s := S2048x128) ![1536, 64] S512x64.size inb_S2048x128_S512x64_1536_64).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x1024_S4x2048x1024 : S8192x1024.ShapeCasts S4x2048x1024
  dot_S2048x1024_S1024x128_S2048x128_1_0_0_1_n_n_wf : DotDims.WF S2048x1024 S1024x128 S2048x128 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .bf16 = 32 ∨ (Rect.block (s := S1024x1024) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x1024.size a
  hwx0_2 : ∀ i : grid0.Coords, EltTy.bits .bf16 = 32 ∨ (Rect.block (s := S1024x1024) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x1024.size a
  hwx0_3 : ∀ i : grid0.Coords, EltTy.bits .bf16 = 32 ∨ (Rect.block (s := S1024x1024) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x1024.size a
  hwx0_4 : ∀ i : grid0.Coords, EltTy.bits .bf16 = 32 ∨ (Rect.block (s := S8192x1024) S2048x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .f32 = 32 ∨ (Rect.block (s := S8192x1024) S512x1024.size (cc1_transform_2 i) (hinb1_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x16x64, .f32⟩
  | .hbm, ⟨7, _⟩ => ⟨S4x16x2048x64, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | .hbm, ⟨36, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelRun.lean ====
/-
  The idealized kernel's run with its result array named.

  From any launch memory with zero counters every weakly fair execution of the program terminates without a fault; in
  the final state the result buffer holds the contents the run's fold through the host operations and the two regions
  assigns to it, and the five argument arrays are as launched.
-/
import proofs.«152040_j65481071397869_2_alg».proof.Proof.Gen.KernelIdeal.Frame
import Idealize.ShloMosaic.PureOps.Ideal

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends with the result buffer at the last boundary's contents and the arguments unchanged. -/
theorem run : θ_run (defs (F := Ideal)) (onTc (τ := τ) (main (F := Ideal))) ⟨m, fun _ => 0, ρ⟩ (fun r => ∀ c : Dev nD,
      r.2.mem ((c.tc : Thread nD τ).loc main_v12) = Gen.W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunValue

end
-- ==== Proof.Spec.lean ====
/-
  The function both programs compute, on the extended reals: multi-head attention.

  Inputs: x of shape [4, 2048, 1024] (batch, position, feature) and four weight matrices of shape
  [1024, 1024] stored [out, in].  With 16 heads of width 64, head h owns the feature columns h*64 .. h*64+63.

    proj W (b, s, f)   = sum over e of x[b, s, e] * W[f, e]                       (x times W transposed)
    score (b, h, q, k) = sum over d of (Q[b, q, h*64+d] * (1/8)) * K[b, k, h*64+d]
    weight             = softmax of a row of scores: with M the row's maximum,
                         exp (score k - M) divided by the sum over k' of exp (score k' - M)
    att (b, s, h, d)   = sum over k of weight k * V[b, k, h*64+d]
    result (b, s, e)   = sum over f of att (b, s, f / 64, f % 64) * Wo[e, f]

  The factor 1/8 is one over the square root of the head width 64.  It is written here on the query's entries, inside
  the sum over d; dividing the whole sum by the square root of 64 instead gives the same number whenever the projections
  are real numbers (distributivity, which fails at an infinity), and that is the one place finiteness is used.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The activations' shape (batch, position, feature). -/
abbrev SX : Shape := ⟨3, ![4, 2048, 1024]⟩
/-- A weight matrix's shape, stored [out, in]. -/
abbrev SW : Shape := ⟨2, ![1024, 1024]⟩
/-- The activations with batch and position flattened into one row axis. -/
abbrev SF : Shape := ⟨2, ![8192, 1024]⟩

/-- The scale on a query's entries: the binary float 0.125, which is exactly 1/8. -/
abbrev scale8 : EReal := Ideal.ofBits .f32 0x3E000000#32
/-- The value a row maximum starts from: the pattern of minus infinity. -/
abbrev negInf : EReal := Ideal.ofBits .f32 0xFF800000#32

/-- A linear projection: entry (b, s, f) of x times W transposed. -/
def proj (X : SX.Idx → EReal) (W : SW.Idx → EReal) (b : Fin 4) (s : Fin 2048) (f : Fin 1024) : EReal :=
  ∑ e : Fin 1024, X (ix3 b s e) * W (ix2 f e)

/-- Feature column d of head h. -/
def hcol (h : Fin 16) (d : Fin 64) : Fin 1024 := ⟨h.val * 64 + d.val, by omega⟩

/-- The maximum of a row of scores (the fold of max from minus infinity). -/
def rowMax (σ : Fin 2048 → EReal) : EReal := (Finset.univ : Finset (Fin 2048)).fold max negInf σ

/-- A row of scores turned into softmax weights and dotted with a row of values. -/
def rowAttn (σ v : Fin 2048 → EReal) : EReal :=
  ∑ k : Fin 2048, Ideal.div (Ideal.exp (σ k - rowMax σ)) (∑ k' : Fin 2048, Ideal.exp (σ k' - rowMax σ)) * v k

/-- The scaled score of query position q against key position k in head h of batch b. -/
def score (X : SX.Idx → EReal) (Wq Wk : SW.Idx → EReal) (b : Fin 4) (h : Fin 16) (q k : Fin 2048) : EReal :=
  ∑ d : Fin 64, (proj X Wq b q (hcol h d) * scale8) * proj X Wk b k (hcol h d)

/-- The attention output at batch b, position s, head h, column d of the head. -/
def att (X : SX.Idx → EReal) (Wq Wk Wv : SW.Idx → EReal) (b : Fin 4) (s : Fin 2048) (h : Fin 16) (d : Fin 64) : EReal :=
  rowAttn (fun k => score X Wq Wk b h s k) (fun k => proj X Wv b k (hcol h d))

/-- The head and the column inside it of a feature column. -/
def headOf (f : Fin 1024) : Fin 16 := ⟨f.val / 64, by omega⟩
def colOf (f : Fin 1024) : Fin 64 := ⟨f.val % 64, by omega⟩

theorem hcol_headOf_colOf (f : Fin 1024) : hcol (headOf f) (colOf f) = f := by
  apply Fin.ext; show f.val / 64 * 64 + f.val % 64 = f.val; omega

/-- The attention output with the heads laid side by side along the feature axis (entry (b, s, f)). -/
def attCat (X : SX.Idx → EReal) (Wq Wk Wv : SW.Idx → EReal) (b : Fin 4) (s : Fin 2048) (f : Fin 1024) : EReal :=
  att X Wq Wk Wv b s (headOf f) (colOf f)

/-- The result at coordinates (b, s, e): the concatenated heads times Wo transposed. -/
def resultAt (X : SX.Idx → EReal) (Wq Wk Wv Wo : SW.Idx → EReal) (b : Fin 4) (s : Fin 2048) (e : Fin 1024) : EReal :=
  ∑ f : Fin 1024, attCat X Wq Wk Wv b s f * Wo (ix2 e f)

/-- The whole result array. -/
def result (X : SX.Idx → EReal) (Wq Wk Wv Wo : SW.Idx → EReal) : SX.Idx → EReal :=
  fun i => resultAt X Wq Wk Wv Wo (i 0) (i 1) (i 2)

theorem result_ix3 (X : SX.Idx → EReal) (Wq Wk Wv Wo : SW.Idx → EReal) (b : Fin 4) (s : Fin 2048) (e : Fin 1024) :
    result X Wq Wk Wv Wo (ix3 b s e) = resultAt X Wq Wk Wv Wo b s e := rfl

/-- The batch and the position of a row of the flattened layout. -/
def batchOf (r : Fin 8192) : Fin 4 := ⟨r.val / 2048, by omega⟩
def posOf (r : Fin 8192) : Fin 2048 := ⟨r.val % 2048, by omega⟩
def rowOf (b : Fin 4) (s : Fin 2048) : Fin 8192 := ⟨b.val * 2048 + s.val, by omega⟩

theorem batchOf_rowOf (b : Fin 4) (s : Fin 2048) : batchOf (rowOf b s) = b := by
  apply Fin.ext; show (b.val * 2048 + s.val) / 2048 = b.val; omega
theorem posOf_rowOf (b : Fin 4) (s : Fin 2048) : posOf (rowOf b s) = s := by
  apply Fin.ext; show (b.val * 2048 + s.val) % 2048 = s.val; omega

/-- The concatenated heads in the flattened layout: entry (r, f) with r = b * 2048 + s. -/
def attFlat (X : SX.Idx → EReal) (Wq Wk Wv : SW.Idx → EReal) : SF.Idx → EReal :=
  fun j => attCat X Wq Wk Wv (batchOf (j 0)) (posOf (j 0)) (j 1)

theorem attFlat_ix2 (X : SX.Idx → EReal) (Wq Wk Wv : SW.Idx → EReal) (r : Fin 8192) (f : Fin 1024) :
    attFlat X Wq Wk Wv (ix2 r f) = attCat X Wq Wk Wv (batchOf r) (posOf r) f := rfl

end Cert.Attn

end
-- ==== Proof.HostIn.lean ====
/-
  The arrays the first region is entered with, read off the host operations before it.

  The activations x of shape [4, 2048, 1024] are flattened to [8192, 1024]: row r of the flat array is position
  r % 2048 of batch r / 2048, because both layouts are row-major (the position of (b, s, e) is (b * 2048 + s) * 1024 + e,
  the position of (r, f) is r * 1024 + f).  Each weight matrix is transposed: entry (p, q) of the transposed matrix is
  entry (q, p) of the argument.  The changes of float format that follow are the identity on the extended reals.
-/
import proofs.«152040_j65481071397869_2_alg».proof.Proof.Spec
import proofs.«152040_j65481071397869_2_alg».proof.Proof.Gen.KernelIdeal.Frame
import Idealize.ShloMosaic.Lib.Pipeline.Value
import Idealize.ShloMosaic.Lib.ValueIdx

noncomputable section

namespace Cert.KernelIdeal.RunValue

open Idealize.ShloMosaic Idealize.ShloMosaic.TcCoe Idealize.ShloMosaic.Tactic
open Idealize.ShloMosaic.ValueIdx
open Cert.KernelIdeal Cert.KernelIdeal.Gen Cert.Attn

variable (m : (ℓ : Loc nD τ sig) → Buf (Elt Ideal) ℓ) (ρ : Dev nD → PrngReg)

/-- The flattening read at an index: entry (r, f) of the flat array is entry (r / 2048, r % 2048, f) of the operand. -/
theorem flatten_apply (X : SX.Idx → EReal) :
    shapeCast SF X shapeCasts_S4x2048x1024_S8192x1024 = fun j => X (ix3 (batchOf (j 0)) (posOf (j 0)) (j 1)) := by
  funext j
  obtain ⟨r, f, rfl⟩ : ∃ (r : Fin 8192) (f : Fin 1024), j = ix2 r f := ⟨j 0, j 1, eq_ix2 j⟩
  refine shapeCast_apply (s := SX) (t := SF) _ _ (ix2 r f) (ix3 (batchOf r) (posOf r) f) ?_
  rw [Shape.rowMajor_val_three, Shape.rowMajor_val_two]
  show (r.val / 2048 * 2048 + r.val % 2048) * 1024 + f.val = r.val * 1024 + f.val
  omega

/-- The transposition of a square matrix read at an index: entry (p, q) is the operand's entry (q, p). -/
theorem transposeW_apply (W : SW.Idx → EReal) :
    transpose SW [1, 0] W transposes_S1024x1024_S1024x1024_1_0 = fun j => W (ix2 (j 1) (j 0)) := by
  funext j
  obtain ⟨p, q, rfl⟩ : ∃ (p q : Fin 1024), j = ix2 p q := ⟨j 0, j 1, eq_ix2 j⟩
  refine transpose_apply (s := SW) (t := SW) _ _ _ (ix2 p q) (ix2 q p) ?_
  intro b
  match b with
  | ⟨0, _⟩ => rfl
  | ⟨1, _⟩ => rfl

/-- The flattened activations the first region reads: row r is position r % 2048 of batch r / 2048. -/
theorem V1_x (c : Dev nD) :
    (Gen.V1 m ρ c main_v1 : SF.Idx → EReal)
      = fun j => (m ((c.tc : Thread nD τ).loc main_arg0) : SX.Idx → EReal) (ix3 (batchOf (j 0)) (posOf (j 0)) (j 1)) := by
  have e : (Gen.V1 m ρ c main_v1 : SF.Idx → EReal)
      = shapeCast SF (m ((c.tc : Thread nD τ).loc main_arg0) : SX.Idx → EReal) shapeCasts_S4x2048x1024_S8192x1024 := by
    dsimp only [Gen.V1, Gen.W1, Gen.hostOps0]; after_results; rfl
  exact e.trans (flatten_apply _)

/-- The query weights as the first region reads them: the transposed matrix. -/
theorem V1_wq (c : Dev nD) :
    (Gen.V1 m ρ c main_v3 : SW.Idx → EReal)
      = fun j => (m ((c.tc : Thread nD τ).loc main_arg1) : SW.Idx → EReal) (ix2 (j 1) (j 0)) := by
  have e : (Gen.V1 m ρ c main_v3 : SW.Idx → EReal)
      = transpose SW [1, 0] (m ((c.tc : Thread nD τ).loc main_arg1) : SW.Idx → EReal) transposes_S1024x1024_S1024x1024_1_0 := by
    dsimp only [Gen.V1, Gen.W1, Gen.hostOps0]; after_results; rfl
  exact e.trans (transposeW_apply _)

/-- The key weights as the first region reads them: the transposed matrix. -/
theorem V1_wk (c : Dev nD) :
    (Gen.V1 m ρ c main_v5 : SW.Idx → EReal)
      = fun j => (m ((c.tc : Thread nD τ).loc main_arg2) : SW.Idx → EReal) (ix2 (j 1) (j 0)) := by
  have e : (Gen.V1 m ρ c main_v5 : SW.Idx → EReal)
      = transpose SW [1, 0] (m ((c.tc : Thread nD τ).loc main_arg2) : SW.Idx → EReal) transposes_S1024x1024_S1024x1024_1_0 := by
    dsimp only [Gen.V1, Gen.W1, Gen.hostOps0]; after_results; rfl
  exact e.trans (transposeW_apply _)

/-- The value weights as the first region reads them: the transposed matrix. -/
theorem V1_wv (c : Dev nD) :
    (Gen.V1 m ρ c main_v7 : SW.Idx → EReal)
      = fun j => (m ((c.tc : Thread nD τ).loc main_arg3) : SW.Idx → EReal) (ix2 (j 1) (j 0)) := by
  have e : (Gen.V1 m ρ c main_v7 : SW.Idx → EReal)
      = transpose SW [1, 0] (m ((c.tc : Thread nD τ).loc main_arg3) : SW.Idx → EReal) transposes_S1024x1024_S1024x1024_1_0 := by
    dsimp only [Gen.V1, Gen.W1, Gen.hostOps0]; after_results; rfl
  exact e.trans (transposeW_apply _)

/-- The output weights as the second region reads them: the transposed matrix. -/
theorem V1_wo (c : Dev nD) :
    (Gen.V1 m ρ c main_v9 : SW.Idx → EReal)
      = fun j => (m ((c.tc : Thread nD τ).loc main_arg4) : SW.Idx → EReal) (ix2 (j 1) (j 0)) := by
  have e : (Gen.V1 m ρ c main_v9 : SW.Idx → EReal)
      = transpose SW [1, 0] (m ((c.tc : Thread nD τ).loc main_arg4) : SW.Idx → EReal) transposes_S1024x1024_S1024x1024_1_0 := by
    dsimp only [Gen.V1, Gen.W1, Gen.hostOps0]; after_results; rfl
  exact e.trans (transposeW_apply _)

end Cert.KernelIdeal.RunValue

end
-- ==== Proof.OutProj.lean ====
/-
  The output projection: the second region, and the reshape after it.

  The second region multiplies the first region's output array A of shape [8192, 1024] (rows are (batch, position)
  pairs, r = b * 2048 + s) by the transposed output weights B of shape [1024, 1024], in 16 row blocks of 512 rows:
  at point t the body reads rows 512 t .. 512 t + 511 of A and all of B and stores their product, a sum over the
  1024 shared columns started from zero, into the same rows of the output.  The blocks tile the output, so after the
  region entry (r, e) of the output is the sum over f of A (r, f) * B (f, e).  B is the transpose of the argument Wo,
  B (f, e) = Wo (e, f), and the closing reshape to [4, 2048, 1024] puts row b * 2048 + s at (b, s).  Hence entry
  (b, s, e) of the result is the sum over f of A (b * 2048 + s, f) * Wo (e, f).
-/
import proofs.«152040_j65481071397869_2_alg».proof.Proof.Spec
import proofs.«152040_j65481071397869_2_alg».proof.Proof.HostIn
import proofs.«152040_j65481071397869_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RunValue

open Idealize.ShloMosaic Idealize.ShloMosaic.TcCoe Idealize.ShloMosaic.Tactic
open Idealize.ShloMosaic.ValueIdx
open Idealize.ShloMosaic.Pipeline (Dat)
open Cert.KernelIdeal Cert.KernelIdeal.Gen Cert.Attn

variable (m : (ℓ : Loc nD τ sig) → Buf (Elt Ideal) ℓ) (ρ : Dev nD → PrngReg)

theorem hz : (![0, 0] : Fin 2 → Nat) = fun _ => 0 := funext fun a => by fin_cases a <;> rfl

/-- The left operand of the product is read at the output's row … -/
theorem lhs_row (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- … and at the summation index on its columns; -/
theorem lhs_col (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  dot_S512x1024_S1024x1024_S512x1024_1_0_0_1_n_n.lhsIdx_val_of_single rfl i k
/-- the right operand at the summation index on its rows … -/
theorem rhs_row (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  dot_S512x1024_S1024x1024_S512x1024_1_0_0_1_n_n.rhsIdx_val_of_single rfl i k
/-- … and at the output's column. -/
theorem rhs_col (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The body's product at an index: row p of the activations block against column q of the weights. -/
theorem pay_apply (x0 : FVec Ideal S512x1024 .bf16) (x1 : FVec Ideal S1024x1024 .bf16) (p : Fin 512) (q : Fin 1024) :
    k1_pay1 (F := Ideal) x0 x1 (ix2 p q) = ∑ f : Fin 1024, x0 (ix2 p f) * x1 (ix2 f q) := by
  unfold k1_pay1
  simp only [shapeCast_self]
  refine (Ideal.matmul_constant_zero_apply dot_S512x1024_S1024x1024_S512x1024_1_0_0_1_n_n none x0 x1 (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q)
      ((contrEquiv1 dot_S512x1024_S1024x1024_S512x1024_1_0_0_1_n_n 1024 rfl rfl).symm k) = ix2 p k :=
    funext fun a => Fin.ext (by
      match a with
      | ⟨0, _⟩ => exact lhs_row _ _
      | ⟨1, _⟩ => exact (lhs_col _ _).trans hk)
  have er : dot_S512x1024_S1024x1024_S512x1024_1_0_0_1_n_n.rhsIdx (ix2 p q)
      ((contrEquiv1 dot_S512x1024_S1024x1024_S512x1024_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-- The product of a flat activations array with a transposed-weights array, entry by entry. -/
def outFlat (A : SF.Idx → EReal) (B : SW.Idx → EReal) : SF.Idx → EReal :=
  fun j => ∑ f : Fin 1024, A (ix2 (j 0) f) * B (ix2 f (j 1))

/-- The product at any index of the block. -/
theorem pay_at (x0 : FVec Ideal S512x1024 .bf16) (x1 : FVec Ideal S1024x1024 .bf16) (y : S512x1024.Idx) :
    k1_pay1 (F := Ideal) x0 x1 y = ∑ f : Fin 1024, x0 (ix2 (y 0) f) * x1 (ix2 f (y 1)) := by
  obtain ⟨p, q, rfl⟩ : ∃ (p : Fin 512) (q : Fin 1024), y = ix2 p q := ⟨y 0, y 1, eq_ix2 y⟩
  exact pay_apply x0 x1 p q

/-- The block indices over the grid: at point t the activations' and the output's block is row block t, and the
    weights' block is the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The activations' block at point t is rows 512 t .. 512 t + 511 of the array. -/
theorem iblk_act (c : Dev nD) (t : Fin cfg1.N) (x : S512x1024.Idx) (k : SF.Idx)
    (hk0 : (k 0).val = t.val * 512 + (x 0).val) (hk1 : (k 1).val = (x 1).val) :
    (iblk1 V c 0 t : Vec Ideal S512x1024 .bf16) x = (V c main_v10 : SF.Idx → EReal) k := by
  obtain ⟨e0, e1, -⟩ := idx_facts t
  unfold iblk1
  rw [View.read_apply]
  show V c main_v10 _ = V c main_v10 _
  congr 1
  funext a
  apply Fin.ext
  match a with
  | ⟨0, _⟩ => show win1_0.index t 0 * 512 + 1 * (x 0).val = (k 0).val; rw [e0, hk0]; omega
  | ⟨1, _⟩ => show win1_0.index t 1 * 1024 + 1 * (x 1).val = (k 1).val; rw [e1, hk1]; omega

/-- The weights' block at every point is the whole array. -/
theorem iblk_wt (c : Dev nD) (t : Fin cfg1.N) (x : S1024x1024.Idx) :
    (iblk1 V c 1 t : Vec Ideal S1024x1024 .bf16) x = (V c main_v9 : SW.Idx → EReal) x := by
  obtain ⟨-, -, e2, e3, -⟩ := idx_facts t
  unfold iblk1
  rw [View.read_apply]
  show V c main_v9 _ = V c main_v9 _
  congr 1
  funext a
  apply Fin.ext
  match a with
  | ⟨0, _⟩ => show win1_1.index t 0 * 1024 + 1 * (x 0).val = (x 0).val; rw [e2]; omega
  | ⟨1, _⟩ => show win1_1.index t 1 * 1024 + 1 * (x 1).val = (x 1).val; rw [e3]; omega

/-- What point t writes back is block t of the product of the arrays the region is entered with. -/
theorem flushed_eq (c : Dev nD) (t : Fin cfg1.N) :
    (dat1 V c).flushed 2 t
      = ((cfg1.win 2).blk t).view.read (Elt Ideal) (outFlat (V c main_v10) (V c main_v9)) := by
  show (cfg1.win 2).cut (grid1.coords t) ((dat1 V c).after 2 t) = _
  rw [after1_2]
  unfold out1_2
  rw [View.canon_unit_zero hz]
  simp only [View.ld_unit_zero (S := S512x1024) hz, View.ld_unit_zero (S := S1024x1024) hz]
  obtain ⟨-, -, -, -, e4, e5⟩ := idx_facts t
  refine funext fun (j : S512x1024.Idx) => ?_
  show k1_pay1 (F := Ideal) (iblk1 V c 0 t) (iblk1 V c 1 t) j
    = outFlat (V c main_v10) (V c main_v9) (((cfg1.win 2).blk t).view.emb j)
  refine (pay_at (iblk1 V c 0 t) (iblk1 V c 1 t) j).trans ?_
  unfold outFlat
  refine Finset.sum_congr rfl fun f _ => ?_
  have h0 : (iblk1 V c 0 t : Vec Ideal S512x1024 .bf16) (ix2 (j 0) f)
      = (V c main_v10 : SF.Idx → EReal) (ix2 ((((cfg1.win 2).blk t).view.emb j : SF.Idx) 0) f) :=
    iblk_act V c t _ _
      (by show (((cfg1.win 2).blk t).view.emb j (0 : Fin 2)).val = t.val * 512 + (j 0).val
          show win1_2.index t 0 * 512 + 1 * (j 0).val = _; rw [e4]; omega)
      rfl
  have h1 : (iblk1 V c 1 t : Vec Ideal S1024x1024 .bf16) (ix2 f (j 1))
      = (V c main_v9 : SW.Idx → EReal) (ix2 f ((((cfg1.win 2).blk t).view.emb j : SF.Idx) 1)) := by
    refine (iblk_wt V c t _).trans (congrArg _ ?_)
    funext a
    apply Fin.ext
    match a with
    | ⟨0, _⟩ => rfl
    | ⟨1, _⟩ => show (j 1).val = win1_2.index t 1 * 1024 + 1 * (j 1).val; rw [e5]; omega
  rw [h0, h1]

/-- An index of the output array is in point t's block iff its row is among the block's 512 rows. -/
theorem mem_blk (t : Fin cfg1.N) (i : SF.Idx) :
    i ∈ ((cfg1.win 2).blk t).view.set
      ↔ ∀ a : Fin 2, win1_2.index t a * S512x1024.size a ≤ (i a).val ∧ (i a).val < win1_2.index t a * S512x1024.size a + S512x1024.size a := by
  show i ∈ ((View.whole main_v11).slice (win1_2.rect t)).set ↔ _
  rw [View.set_slice_whole, Rect.mem_set_unit]
  exact Iff.rfl

/-- Every index of the output array is in some point's block: row r is in block r / 512. -/
theorem cover (i : SF.Idx) : ∃ t : Fin cfg1.N, (cfg1.win 2).flush t = true ∧ i ∈ ((cfg1.win 2).blk t).view.set := by
  have hi0 : (i 0).val < 8192 := (i 0).isLt
  have hi1 : (i 1).val < 1024 := (i 1).isLt
  have hN : cfg1.N = 16 := N_1
  refine ⟨⟨(i 0).val / 512, by rw [hN]; omega⟩, flush1_2 _, ?_⟩
  obtain ⟨-, -, -, -, e4, e5⟩ := idx_facts ⟨(i 0).val / 512, by rw [hN]; omega⟩
  rw [mem_blk]
  intro a
  match a with
  | ⟨0, _⟩ =>
    show win1_2.index _ 0 * 512 ≤ (i 0).val ∧ (i 0).val < win1_2.index _ 0 * 512 + 512
    rw [e4]; show (i 0).val / 512 * 512 ≤ (i 0).val ∧ (i 0).val < (i 0).val / 512 * 512 + 512; omega
  | ⟨1, _⟩ =>
    show win1_2.index _ 1 * 1024 ≤ (i 1).val ∧ (i 1).val < win1_2.index _ 1 * 1024 + 1024
    rw [e5]; omega

/-- The second region's output array after the region: the product of the arrays it was entered with. -/
theorem region_out (c : Dev nD) :
    ((dat1 V c).arrAt 2 cfg1.N : SF.Idx → EReal) = outFlat (V c main_v10) (V c main_v9) :=
  (dat1 V c).arrAt_eq_of_cover 2 (outFlat (V c main_v10) (V c main_v9)) (fun t _ => flushed_eq V c t) cover

/-- The final un-flattening read at an index: entry (b, s, e) is entry (b * 2048 + s, e) of the flat array. -/
theorem unflatten_apply (Y : SF.Idx → EReal) :
    shapeCast SX Y shapeCasts_S8192x1024_S4x2048x1024 = fun i => Y (ix2 (rowOf (i 0) (i 1)) (i 2)) := by
  funext i
  obtain ⟨b, s, e, rfl⟩ : ∃ (b : Fin 4) (s : Fin 2048) (e : Fin 1024), i = ix3 b s e := ⟨i 0, i 1, i 2, eq_ix3 i⟩
  refine shapeCast_apply (s := SF) (t := SX) _ _ (ix3 b s e) (ix2 (rowOf b s) e) ?_
  rw [Shape.rowMajor_val_three, Shape.rowMajor_val_two]
  rfl

/-- Rows of a flat activations array against rows of a weight matrix stored [out, in], laid out as (batch, position,
    feature): entry (b, s, e) is the sum over f of A (b * 2048 + s, f) * Wo (e, f). -/
def outProj (A : SF.Idx → EReal) (Wo : SW.Idx → EReal) : SX.Idx → EReal :=
  fun i => ∑ f : Fin 1024, A (ix2 (rowOf (i 0) (i 1)) f) * Wo (ix2 (i 2) f)

theorem outProj_ix3 (A : SF.Idx → EReal) (Wo : SW.Idx → EReal) (b : Fin 4) (s : Fin 2048) (e : Fin 1024) :
    outProj A Wo (ix3 b s e) = ∑ f : Fin 1024, A (ix2 (rowOf b s) f) * Wo (ix2 e f) := rfl

/-- The result array: entry (b, s, e) is row b * 2048 + s of the first region's output array against row e of the
    output weights. -/
theorem W4_result (c : Dev nD) :
    (Gen.W4 m ρ c (Proc.devRef .tc main_v12) : SX.Idx → EReal)
      = outProj (Gen.V2 m ρ c main_v10) (m ((c.tc : Thread nD τ).loc main_arg4)) := by
  have e4 : (Gen.W4 m ρ c (Proc.devRef .tc main_v12) : SX.Idx → EReal)
      = shapeCast SX (Gen.W3 m ρ c (Proc.devRef .tc main_v11) : SF.Idx → EReal) shapeCasts_S8192x1024_S4x2048x1024 := by
    show StableHlo.after hostOps2 (Gen.W3 m ρ c) (Proc.devRef .tc main_v12) = _
    dsimp only [Gen.hostOps2]; after_results; rfl
  have e3 : (Gen.W3 m ρ c (Proc.devRef .tc main_v11) : SF.Idx → EReal)
      = outFlat (Gen.V2 m ρ c main_v10) (Gen.V2 m ρ c main_v9) :=
    (Gen.W3_arr m ρ c 2).trans (region_out (Gen.V2 m ρ) c)
  have e9 : (Gen.V2 m ρ c main_v9 : SW.Idx → EReal)
      = fun j => (m ((c.tc : Thread nD τ).loc main_arg4) : SW.Idx → EReal) (ix2 (j 1) (j 0)) :=
    (Gen.W2_of_ne m ρ c main_v9 (by decide)).trans (V1_wo m ρ c)
  rw [e4, e3, e9, unflatten_apply]
  rfl

/-- Once the first region's output array is known to be the concatenated heads in the flat layout, the result array is
    the specification's result. -/
theorem W4_of_attFlat (c : Dev nD) (X : SX.Idx → EReal) (Wq Wk Wv : SW.Idx → EReal)
    (h : (Gen.V2 m ρ c main_v10 : SF.Idx → EReal) = attFlat X Wq Wk Wv) :
    (Gen.W4 m ρ c (Proc.devRef .tc main_v12) : SX.Idx → EReal)
      = result X Wq Wk Wv (m ((c.tc : Thread nD τ).loc main_arg4)) := by
  rw [W4_result, h]
  funext i
  obtain ⟨b, s, e, rfl⟩ : ∃ (b : Fin 4) (s : Fin 2048) (e : Fin 1024), i = ix3 b s e := ⟨i 0, i 1, i 2, eq_ix3 i⟩
  rw [outProj_ix3, result_ix3]
  unfold resultAt
  refine Finset.sum_congr rfl fun f _ => ?_
  rw [attFlat_ix2, batchOf_rowOf, posOf_rowOf]

end Cert.KernelIdeal.RunValue

end
-- ==== Proof.Tile.lean ====
/-
  One attention tile, index by index, on the extended reals.

  A tile takes the keys and the values of one head (2048 positions by 64 columns each) and 512 query rows of the
  same head, and returns, for query row p and column d,

      sum over k of  w(p, k) * V(k, d),     w(p, k) = exp (s(p, k) - M(p)) / sum over k' of exp (s(p, k') - M(p)),
      s(p, k) = sum over d' of (Q(p, d') * (1/8)) * K(k, d'),     M(p) = the maximum over k of s(p, k).

  The program spells this chain eight times (two heads, four groups of 512 query rows); the eight spellings are one
  term, so one reading at an index serves them all.  Changes of float format are the identity on the extended reals,
  a matrix product into a zero accumulator is the plain sum of products, a lane maximum is the fold of max from
  minus infinity, a lane sum is the plain sum.
-/
import proofs.«152040_j65481071397869_2_alg».proof.Proof.Gen.KernelIdeal.Skeleton
import proofs.«152040_j65481071397869_2_alg».proof.Proof.Spec
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Cert.Attn Idealize.ShloMosaic Idealize.ShloMosaic.ValueIdx

/-! ## The eight spellings are one term -/

/-- The tile as the program spells it from raw query rows. -/
abbrev tile (K V : Vec Ideal S2048x64 .bf16) (Q : Vec Ideal S512x64 .bf16) : FVec Ideal S512x64 .bf16 := k0_pay9 K V Q

theorem pay8_eq (K V : Vec Ideal S2048x64 .bf16) (Q : Vec Ideal S512x64 .bf16) :
    k0_pay8 K V (k0_pay7 Q) (constant S512x2048 .f32 0x00000000#32) = tile K V Q := rfl
theorem pay11_eq (K V : Vec Ideal S2048x64 .bf16) (Q : Vec Ideal S512x64 .bf16) :
    k0_pay11 V (k0_pay10 K Q) = tile K V Q := rfl
theorem pay12_eq (K V : Vec Ideal S2048x64 .bf16) (Q : Vec Ideal S512x64 .bf16) :
    k0_pay12 K V Q = tile K V Q := rfl
theorem pay14_eq (K V : Vec Ideal S2048x64 .bf16) (Q : Vec Ideal S512x64 .bf16) :
    k0_pay14 K V (k0_pay13 Q) = tile K V Q := rfl
theorem pay15_eq (K V : Vec Ideal S2048x64 .bf16) (Q : Vec Ideal S512x64 .bf16) :
    k0_pay15 K V Q = tile K V Q := rfl
theorem pay1_eq (K V : Vec Ideal S2048x64 .bf16) (Q : Vec Ideal S512x64 .bf16) :
    k0_pay1 K V (k0_pay16 Q) (constant S512x2048 .f32 0x00000000#32) = tile K V Q := rfl
theorem pay2_eq (K V : Vec Ideal S2048x64 .bf16) (Q : Vec Ideal S512x64 .bf16) :
    k0_pay2 K V Q = tile K V Q := rfl

/-! ## The three matrix products at an index -/

theorem qk_l0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_l1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_r0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_r1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Query rows against key rows: both operands are contracted along their columns. -/
theorem qk_apply (L : FVec Ideal S512x64 .bf16) (R : FVec Ideal S2048x64 .bf16) (p : Fin 512) (k : Fin 2048) :
    matmul dot_S512x64_S2048x64_S512x2048_1_1_0_0_n_n none L R (constant S512x2048 .f32 0x00000000#32) (ix2 p k)
      = ∑ d : Fin 64, L (ix2 p d) * R (ix2 k d) := by
  refine (Ideal.matmul_constant_zero_apply dot_S512x64_S2048x64_S512x2048_1_1_0_0_n_n none L R (ix2 p k)).trans ?_
  rw [← Equiv.sum_comp (contrEquiv1 dot_S512x64_S2048x64_S512x2048_1_1_0_0_n_n 64 rfl rfl).symm]
  refine Finset.sum_congr rfl fun d _ => ?_
  have hc := contrEquiv1_symm_val dot_S512x64_S2048x64_S512x2048_1_1_0_0_n_n 64 rfl rfl d
  have el : dot_S512x64_S2048x64_S512x2048_1_1_0_0_n_n.lhsIdx (ix2 p k) ((contrEquiv1 dot_S512x64_S2048x64_S512x2048_1_1_0_0_n_n 64 rfl rfl).symm d) = ix2 p d :=
    funext fun a => Fin.ext (by
      match a with
      | ⟨0, _⟩ => exact qk_l0 _ _
      | ⟨1, _⟩ => exact (qk_l1 _ _).trans hc)
  have er : dot_S512x64_S2048x64_S512x2048_1_1_0_0_n_n.rhsIdx (ix2 p k) ((contrEquiv1 dot_S512x64_S2048x64_S512x2048_1_1_0_0_n_n 64 rfl rfl).symm d) = ix2 k d :=
    funext fun a => Fin.ext (by
      match a with
      | ⟨0, _⟩ => exact qk_r0 _ _
      | ⟨1, _⟩ => exact (qk_r1 _ _).trans hc)
  rw [el, er]

theorem pv_l0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_l1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_r1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl
theorem pv_r0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q

/-- Weights against values: the weights' columns meet the values' rows. -/
theorem pv_apply (L : FVec Ideal S512x2048 .bf16) (R : FVec Ideal S2048x64 .bf16) (p : Fin 512) (d : Fin 64) :
    matmul dot_S512x2048_S2048x64_S512x64_1_0_0_1_n_n none L R (constant S512x64 .f32 0x00000000#32) (ix2 p d)
      = ∑ k : Fin 2048, L (ix2 p k) * R (ix2 k d) := by
  refine (Ideal.matmul_constant_zero_apply dot_S512x2048_S2048x64_S512x64_1_0_0_1_n_n none L R (ix2 p d)).trans ?_
  rw [← Equiv.sum_comp (contrEquiv1 dot_S512x2048_S2048x64_S512x64_1_0_0_1_n_n 2048 rfl rfl).symm]
  refine Finset.sum_congr rfl fun k _ => ?_
  have hc := contrEquiv1_symm_val dot_S512x2048_S2048x64_S512x64_1_0_0_1_n_n 2048 rfl rfl k
  have el : dot_S512x2048_S2048x64_S512x64_1_0_0_1_n_n.lhsIdx (ix2 p d) ((contrEquiv1 dot_S512x2048_S2048x64_S512x64_1_0_0_1_n_n 2048 rfl rfl).symm k) = ix2 p k :=
    funext fun a => Fin.ext (by
      match a with
      | ⟨0, _⟩ => exact pv_l0 _ _
      | ⟨1, _⟩ => exact (pv_l1 _ _).trans hc)
  have er : dot_S512x2048_S2048x64_S512x64_1_0_0_1_n_n.rhsIdx (ix2 p d) ((contrEquiv1 dot_S512x2048_S2048x64_S512x64_1_0_0_1_n_n 2048 rfl rfl).symm k) = ix2 k d :=
    funext fun a => Fin.ext (by
      match a with
      | ⟨0, _⟩ => exact (pv_r0 _ _).trans hc
      | ⟨1, _⟩ => exact pv_r1 _ _)
  rw [el, er]

theorem xw_l0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide),
    dif_pos (show (0 : Fin S2048x1024.rank) ∈ dot_S2048x1024_S1024x128_S2048x128_1_0_0_1_n_n.lhsNonContracting by decide)]
  rfl
theorem xw_l1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem xw_r1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide),
    dif_pos (show (1 : Fin S1024x128.rank) ∈ dot_S2048x1024_S1024x128_S2048x128_1_0_0_1_n_n.rhsNonContracting by decide)]
  rfl
theorem xw_r0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q

/-- A projection: the activations' columns meet the weight block's rows. -/
theorem xw_apply (L : FVec Ideal S2048x1024 .bf16) (R : FVec Ideal S1024x128 .bf16) (r : Fin 2048) (j : Fin 128) :
    matmul dot_S2048x1024_S1024x128_S2048x128_1_0_0_1_n_n none L R (constant S2048x128 .f32 0x00000000#32) (ix2 r j)
      = ∑ e : Fin 1024, L (ix2 r e) * R (ix2 e j) := by
  refine (Ideal.matmul_constant_zero_apply dot_S2048x1024_S1024x128_S2048x128_1_0_0_1_n_n none L R (ix2 r j)).trans ?_
  rw [← Equiv.sum_comp (contrEquiv1 dot_S2048x1024_S1024x128_S2048x128_1_0_0_1_n_n 1024 rfl rfl).symm]
  refine Finset.sum_congr rfl fun e _ => ?_
  have hc := contrEquiv1_symm_val dot_S2048x1024_S1024x128_S2048x128_1_0_0_1_n_n 1024 rfl rfl e
  have el : dot_S2048x1024_S1024x128_S2048x128_1_0_0_1_n_n.lhsIdx (ix2 r j) ((contrEquiv1 dot_S2048x1024_S1024x128_S2048x128_1_0_0_1_n_n 1024 rfl rfl).symm e) = ix2 r e :=
    funext fun a => Fin.ext (by
      match a with
      | ⟨0, _⟩ => exact xw_l0 _ _
      | ⟨1, _⟩ => exact (xw_l1 _ _).trans hc)
  have er : dot_S2048x1024_S1024x128_S2048x128_1_0_0_1_n_n.rhsIdx (ix2 r j) ((contrEquiv1 dot_S2048x1024_S1024x128_S2048x128_1_0_0_1_n_n 1024 rfl rfl).symm e) = ix2 e j :=
    funext fun a => Fin.ext (by
      match a with
      | ⟨0, _⟩ => exact (xw_r0 _ _).trans hc
      | ⟨1, _⟩ => exact xw_r1 _ _)
  rw [el, er]

/-! ## A row statistic spread back over the row -/

/-- A vector of 512 row statistics, made a column and spread over 2048 lanes, read at (p, k): the statistic of row p. -/
theorem spread_apply (v : FVec Ideal S512 .f32) (p : Fin 512) (k : Fin 2048) :
    broadcastTo S512x2048 (shapeCast S512x1 v shapeCasts_S512_S512x1) broadcasts_S512x1_S512x2048 (ix2 p k) = v (ix1 p) := by
  rw [broadcastTo_apply _ _ (ix2 p k) (ix2 p (0 : Fin 1)) (by
    intro a
    match a with
    | ⟨0, _⟩ => rfl
    | ⟨1, _⟩ => rfl)]
  exact shapeCast_apply _ _ _ (ix1 p) (by
    rw [Shape.rowMajor_val_one, Shape.rowMajor_val_two]; show p.val = p.val * 1 + 0; omega)

/-! ## The row statistics -/

/-- The source index over row p with lane k inserted is (p, k). -/
theorem lift_row (p : Fin 512) (k : Fin 2048) : reduces_S512x2048_S512.lift (ix1 p) k = ix2 p k :=
  funext fun c => Fin.ext (by
    match c with
    | ⟨0, _⟩ => rfl
    | ⟨1, _⟩ => rfl)

/-- A lane sum of a 512 by 2048 tile, at row p: the plain sum over the row. -/
theorem rowsum_apply (E : FVec Ideal S512x2048 .f32) (p : Fin 512) :
    multiReduction .add [1] S512 E 0x00000000#32 reduces_S512x2048_S512 (.inl rfl) rfl (ix1 p) = ∑ k : Fin 2048, E (ix2 p k) :=
  (Ideal.multiReduction_add_single E _ reduces_S512x2048_S512 _ _ (ix1 p)).trans
    (Finset.sum_congr rfl fun k _ => congrArg E (lift_row p k))

/-- A lane maximum of a 512 by 2048 tile, at row p: the fold of max over the row, from minus infinity. -/
theorem rowmax_apply (s : FVec Ideal S512x2048 .f32) (p : Fin 512) :
    multiReduction .maximumf [1] S512 s 0xFF800000#32 reduces_S512x2048_S512 (.inl rfl) rfl (ix1 p) = rowMax (fun k => s (ix2 p k)) := by
  refine (Ideal.multiReduction_maximumf_single s _ reduces_S512x2048_S512 _ _ (ix1 p)).trans ?_
  unfold rowMax
  refine congrArg (fun f => (Finset.univ : Finset (Fin 2048)).fold max negInf f) ?_
  funext k
  exact congrArg s (lift_row p k)

/-! ## The tile at an index -/

/-- The scaled scores of a tile: query row p against key row k. -/
theorem scores_apply (K : Vec Ideal S2048x64 .bf16) (Q : Vec Ideal S512x64 .bf16) (p : Fin 512) (k : Fin 2048) :
    k0_pay10 K Q (ix2 p k) = ∑ d : Fin 64, (Q (ix2 p d) * scale8) * K (ix2 k d) := by
  unfold k0_pay10
  exact (qk_apply _ K p k).trans (Finset.sum_congr rfl fun d _ => rfl)

/-- From a tile of scores to the output: softmax weights along each row, dotted with the values' columns. -/
theorem soft_apply (V : Vec Ideal S2048x64 .bf16) (s : FVec Ideal S512x2048 .f32) (p : Fin 512) (d : Fin 64) :
    k0_pay11 V s (ix2 p d) = rowAttn (fun k => s (ix2 p k)) (fun k => V (ix2 k d)) := by
  unfold k0_pay11
  refine (pv_apply _ V p d).trans ?_
  unfold rowAttn
  refine Finset.sum_congr rfl fun k _ => ?_
  refine congrArg (fun w => w * V (ix2 k d)) ?_
  show Ideal.div (Ideal.exp (s (ix2 p k) - _)) _ = _
  rw [spread_apply, spread_apply, rowmax_apply, rowsum_apply]
  refine congrArg (fun z => Ideal.div (Ideal.exp (s (ix2 p k) - rowMax fun k => s (ix2 p k))) z) ?_
  refine Finset.sum_congr rfl fun k' _ => ?_
  show Ideal.exp (s (ix2 p k') - _) = _
  rw [spread_apply, rowmax_apply]

/-- The whole tile at row p, column d. -/
theorem tile_apply (K V : Vec Ideal S2048x64 .bf16) (Q : Vec Ideal S512x64 .bf16) (p : Fin 512) (d : Fin 64) :
    tile K V Q (ix2 p d)
      = rowAttn (fun k => ∑ d' : Fin 64, (Q (ix2 p d') * scale8) * K (ix2 k d')) (fun k => V (ix2 k d)) := by
  rw [← pay11_eq, soft_apply]
  refine congrArg (fun σ => rowAttn σ fun k => V (ix2 k d)) ?_
  funext k
  exact scores_apply K Q p k

end Cert.KernelIdeal.Tile

end
-- ==== Proof.Block.lean ====
/-
  What one grid point of the fused projection-and-attention region leaves in its output block.

  At a grid point the body holds 2048 rows of activations x0 (one batch) and three blocks of 128 weight columns
  x1, x2, x3 (one pair of heads, for queries, keys and values).  It forms the three projections

      P w (r, j) = sum over e of x0 (r, e) * w (e, j)          (2048 rows by 128 columns)

  and then, for each of the two heads in the pair (columns 0..63 and 64..127) and each group of 512 query rows, one
  attention tile over all 2048 key rows.  The eight tiles fill the 2048 by 128 output block, so the block is one
  function of its index: at row r and column cc, with the head's columns being those of cc's half,

      sum over k of softmax-weight (r, k) * P x3 (k, cc),
      score (r, k) = sum over d of (P x1 (r, half + d) * (1/8)) * P x2 (k, half + d).
-/
import proofs.«152040_j65481071397869_2_alg».proof.Proof.Gen.KernelIdeal.Frame
import proofs.«152040_j65481071397869_2_alg».proof.Proof.Tile
import proofs.«152040_j65481071397869_2_alg».proof.Proof.Spec
import Idealize.ShloMosaic.Lib.Pipeline.Value
import Idealize.ShloMosaic.Lib.ValueIdx

set_option maxRecDepth 16384

noncomputable section

namespace Cert.KernelIdeal.Block

open Cert.KernelIdeal Cert.KernelIdeal.Gen Cert.KernelIdeal.Tile Cert.Attn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The block as one function of its index -/

/-- A projection of the point's activations by a block of weight columns. -/
def projBlk (x : Vec Ideal S2048x1024 .bf16) (w : Vec Ideal S1024x128 .bf16) (r : Fin 2048) (j : Fin 128) : EReal :=
  ∑ e : Fin 1024, x (ix2 r e) * w (ix2 e j)

/-- Column d of the head (of the pair) that column cc belongs to. -/
def half (cc : Fin 128) (d : Fin 64) : Fin 128 := ⟨cc.val / 64 * 64 + d.val, by omega⟩

/-- The output block at row r, column cc. -/
def blockAt (x0 : Vec Ideal S2048x1024 .bf16) (x1 x2 x3 : Vec Ideal S1024x128 .bf16) (r : Fin 2048) (cc : Fin 128) : EReal :=
  rowAttn (fun k => ∑ d : Fin 64, (projBlk x0 x1 r (half cc d) * scale8) * projBlk x0 x2 k (half cc d))
    (fun k => projBlk x0 x3 k cc)

/-- The output block. -/
def blockFn (x0 : Vec Ideal S2048x1024 .bf16) (x1 x2 x3 : Vec Ideal S1024x128 .bf16) : S2048x128.Idx → EReal :=
  fun y => blockAt x0 x1 x2 x3 (y 0) (y 1)

/-! ## The projections the body stores -/

theorem pay4_apply (x0 : Vec Ideal S2048x1024 .bf16) (w : Vec Ideal S1024x128 .bf16) (r : Fin 2048) (j : Fin 128) :
    k0_pay4 x0 w (ix2 r j) = projBlk x0 w r j := by
  unfold k0_pay4 k0_pay3
  refine (congrFun (shapeCast_self _ shapeCasts_S2048x128_S2048x128) (ix2 r j)).trans ?_
  refine (xw_apply (shapeCast S2048x1024 x0 shapeCasts_S2048x1024_S2048x1024)
    (shapeCast S1024x128 w shapeCasts_S1024x128_S1024x128) r j).trans ?_
  unfold projBlk
  refine Finset.sum_congr rfl fun e _ => ?_
  exact congrArg₂ (· * ·) (congrFun (shapeCast_self x0 _) (ix2 r e)) (congrFun (shapeCast_self w _) (ix2 e j))

theorem pay5_apply (x0 : Vec Ideal S2048x1024 .bf16) (w : Vec Ideal S1024x128 .bf16) (r : Fin 2048) (j : Fin 128) :
    k0_pay5 x0 w (ix2 r j) = projBlk x0 w r j := pay4_apply x0 w r j

theorem pay6_apply (x0 : Vec Ideal S2048x1024 .bf16) (w : Vec Ideal S1024x128 .bf16) (r : Fin 2048) (j : Fin 128) :
    k0_pay6 x0 w (ix2 r j) = projBlk x0 w r j := pay4_apply x0 w r j

/-! ## Slices of a 2048 by 128 buffer -/

theorem zero2 : (![0, 0] : Fin 2 → Nat) = fun _ => 0 := by funext a; fin_cases a <;> rfl

/-- A load through any rectangle of what one whole-buffer store left: the stored value at the rectangle's indices. -/
theorem readCov_one {sig : RefSig} {κ : Kind} {sp : Space} {S : Shape} {e : EltTy} (v : View sig κ sp S e)
    {off : Fin S.rank → Nat} (h : off = fun _ => 0) (inb : ∀ a, off a + S.size a ≤ S.size a)
    (w : S.Idx → Elt Ideal e) (r : Rect S) :
    v.readCov [(⟨Rect.unit off S.size inb, w⟩ : View.Piece (Elt Ideal) S e)] r.toLoadRect = View.ld w r := by
  rw [View.readCov_eq_canon_ld _ _ _ (fun y => ⟨_, List.mem_singleton_self _, View.mem_set_unit_zero h inb y⟩),
    View.canon_unit_zero h]

/-- The index a unit-stride rectangle at offsets (a, b) gives its own index (p, d): (a + p, b + d). -/
theorem idx_unit_ix2 (a b n0 n1 : Nat) (inb : ∀ c, (![a, b] : Fin 2 → Nat) c + (![n0, n1] : Fin 2 → Nat) c ≤ S2048x128.size c)
    (p : Fin n0) (d : Fin n1) (u : Fin 2048) (v : Fin 128) (hu : u.val = a + p.val) (hv : v.val = b + d.val) :
    (Rect.unit (s := S2048x128) ![a, b] ![n0, n1] inb).idx (ix2 p d) = ix2 u v :=
  funext fun c => Fin.ext (by
    match c with
    | ⟨0, _⟩ => show a + 1 * p.val = u.val; omega
    | ⟨1, _⟩ => show b + 1 * d.val = v.val; omega)

/-- A slice read at its own index. -/
theorem ld_unit_ix2 (Y : Vec Ideal S2048x128 .bf16) (a b n0 n1 : Nat)
    (inb : ∀ c, (![a, b] : Fin 2 → Nat) c + (![n0, n1] : Fin 2 → Nat) c ≤ S2048x128.size c)
    (p : Fin n0) (d : Fin n1) (u : Fin 2048) (v : Fin 128) (hu : u.val = a + p.val) (hv : v.val = b + d.val) :
    View.ld (Val := Elt Ideal) (e' := .bf16) Y (Rect.unit (s := S2048x128) ![a, b] ![n0, n1] inb) (ix2 p d) = Y (ix2 u v) :=
  congrArg Y (idx_unit_ix2 a b n0 n1 inb p d u v hu hv)

/-! ## One tile is the block on its rectangle -/

/-- The tile of query rows a .. a+511 and head columns b .. b+63 (b is 0 or 64), read at its own index, is the
    block function at that index placed in the block. -/
theorem tile_is_block (x0 : Vec Ideal S2048x1024 .bf16) (x1 x2 x3 : Vec Ideal S1024x128 .bf16) (a b : Nat)
    (ha : a + 512 ≤ 2048) (hb : b = 0 ∨ b = 64)
    (inbO inbQ : ∀ c, (![a, b] : Fin 2 → Nat) c + (![512, 64] : Fin 2 → Nat) c ≤ S2048x128.size c)
    (inbK inbV : ∀ c, (![0, b] : Fin 2 → Nat) c + (![2048, 64] : Fin 2 → Nat) c ≤ S2048x128.size c)
    (x : (⟨2, ![512, 64]⟩ : Shape).Idx) :
    tile (View.ld (Val := Elt Ideal) (e' := .bf16) (k0_pay5 x0 x2) (Rect.unit (s := S2048x128) ![0, b] ![2048, 64] inbK))
        (View.ld (Val := Elt Ideal) (e' := .bf16) (k0_pay6 x0 x3) (Rect.unit (s := S2048x128) ![0, b] ![2048, 64] inbV))
        (View.ld (Val := Elt Ideal) (e' := .bf16) (k0_pay4 x0 x1) (Rect.unit (s := S2048x128) ![a, b] ![512, 64] inbQ)) x
      = blockFn x0 x1 x2 x3 ((Rect.unit (s := S2048x128) ![a, b] ![512, 64] inbO).emb x) := by
  obtain ⟨p, d, rfl⟩ : ∃ (p : Fin 512) (d : Fin 64), x = ix2 p d := ⟨x 0, x 1, eq_ix2 x⟩
  have hbd : b + d.val < 128 := by rcases hb with rfl | rfl <;> omega
  have hemb : (Rect.unit (s := S2048x128) ![a, b] ![512, 64] inbO).emb (ix2 p d)
      = ix2 (⟨a + p.val, by omega⟩ : Fin 2048) (⟨b + d.val, hbd⟩ : Fin 128) :=
    idx_unit_ix2 a b 512 64 inbO p d _ _ rfl rfl
  rw [hemb, tile_apply]
  show _ = blockAt x0 x1 x2 x3 (⟨a + p.val, by omega⟩ : Fin 2048) (⟨b + d.val, hbd⟩ : Fin 128)
  unfold blockAt
  have hσ : (fun k : Fin 2048 => ∑ d' : Fin 64,
        (View.ld (Val := Elt Ideal) (e' := .bf16) (k0_pay4 x0 x1) (Rect.unit (s := S2048x128) ![a, b] ![512, 64] inbQ) (ix2 p d') * scale8)
          * View.ld (Val := Elt Ideal) (e' := .bf16) (k0_pay5 x0 x2) (Rect.unit (s := S2048x128) ![0, b] ![2048, 64] inbK) (ix2 k d'))
      = fun k : Fin 2048 => ∑ d' : Fin 64,
        (projBlk x0 x1 (⟨a + p.val, by omega⟩ : Fin 2048) (half (⟨b + d.val, hbd⟩ : Fin 128) d') * scale8)
          * projBlk x0 x2 k (half (⟨b + d.val, hbd⟩ : Fin 128) d') := by
    funext k
    refine Finset.sum_congr rfl fun d' _ => ?_
    have hh : (half (⟨b + d.val, hbd⟩ : Fin 128) d').val = b + d'.val := by
      show (b + d.val) / 64 * 64 + d'.val = b + d'.val
      rcases hb with rfl | rfl <;> omega
    rw [ld_unit_ix2 _ a b 512 64 inbQ p d' (⟨a + p.val, by omega⟩ : Fin 2048) (half (⟨b + d.val, hbd⟩ : Fin 128) d') rfl hh,
      ld_unit_ix2 _ 0 b 2048 64 inbK k d' k (half (⟨b + d.val, hbd⟩ : Fin 128) d') (by omega) hh,
      pay4_apply, pay5_apply]
  have hv : (fun k : Fin 2048 => View.ld (Val := Elt Ideal) (e' := .bf16) (k0_pay6 x0 x3) (Rect.unit (s := S2048x128) ![0, b] ![2048, 64] inbV) (ix2 k d))
      = fun k : Fin 2048 => projBlk x0 x3 k (⟨b + d.val, hbd⟩ : Fin 128) := by
    funext k
    rw [ld_unit_ix2 _ 0 b 2048 64 inbV k d k (⟨b + d.val, hbd⟩ : Fin 128) (by omega) rfl, pay6_apply]
  rw [hσ, hv]

/-! ## The eight stores fill the block with it -/

set_option maxHeartbeats 1000000 in
/-- What the body's run leaves in the output's staging buffer is the block function of the point's input blocks. -/
theorem out_eq (c : Dev nD) (i : grid0.Coords) (arg2 : Memref sig .tc .vmem S2048x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole)
    (x0 : Vec Ideal S2048x1024 .bf16) (x1 : Vec Ideal S1024x128 .bf16) (x2 : Vec Ideal S1024x128 .bf16) (x3 : Vec Ideal S1024x128 .bf16) :
    out0_A_4 (F := Ideal) c i arg2 harg2 arg3 harg3 arg4 harg4 arg5 harg5 arg6 harg6 arg7 harg7 arg8 harg8 arg9 harg9 x0 x1 x2 x3 = blockFn x0 x1 x2 x3 := by
  funext y
  unfold out0_A_4
  rw [View.read_writes_eq_canon _ _ _ (cover0_A_4 c i arg2 harg2 arg3 harg3 arg4 harg4 arg5 harg5 arg6 harg6 arg7 harg7 arg8 harg8 arg9 harg9 x0 x1 x2 x3)]
  refine View.canon_apply_of_pieces (blockFn x0 x1 x2 x3) _ ?_ y (cover0_A_4 c i arg2 harg2 arg3 harg3 arg4 harg4 arg5 harg5 arg6 harg6 arg7 harg7 arg8 harg8 arg9 harg9 x0 x1 x2 x3 y)
  unfold kernelRun0_A
  dsimp only
  sl_unfold_words
  simp only [View.readAt_eq_ld, harg2.read_unread, harg3.read_unread, harg4.read_unread, harg5.read_unread,
    View.ld_unit_zero (S := S2048x1024) zero2, View.ld_unit_zero (S := S1024x128) zero2,
    readCov_one (S := S2048x128) (off := ![0, 0]) _ zero2]
  intro pc hpc
  simp only [List.mem_cons, List.not_mem_nil, or_false] at hpc
  rcases hpc with rfl | rfl | rfl | rfl | rfl | rfl | rfl | rfl
  · intro x
    dsimp only
    rw [pay2_eq]
    exact tile_is_block x0 x1 x2 x3 1536 64 (by omega) (Or.inr rfl) _ _ _ _ x
  · intro x
    dsimp only
    rw [pay1_eq]
    exact tile_is_block x0 x1 x2 x3 1024 64 (by omega) (Or.inr rfl) _ _ _ _ x
  · intro x
    dsimp only
    rw [pay15_eq]
    exact tile_is_block x0 x1 x2 x3 512 64 (by omega) (Or.inr rfl) _ _ _ _ x
  · intro x
    dsimp only
    rw [pay14_eq]
    exact tile_is_block x0 x1 x2 x3 0 64 (by omega) (Or.inr rfl) _ _ _ _ x
  · intro x
    dsimp only
    rw [pay12_eq]
    exact tile_is_block x0 x1 x2 x3 1536 0 (by omega) (Or.inl rfl) _ _ _ _ x
  · intro x
    dsimp only
    rw [pay11_eq]
    exact tile_is_block x0 x1 x2 x3 1024 0 (by omega) (Or.inl rfl) _ _ _ _ x
  · intro x
    dsimp only
    exact tile_is_block x0 x1 x2 x3 512 0 (by omega) (Or.inl rfl) _ _ _ _ x
  · intro x
    dsimp only
    rw [pay8_eq]
    exact tile_is_block x0 x1 x2 x3 0 0 (by omega) (Or.inl rfl) _ _ _ _ x

end Cert.KernelIdeal.Block

end
-- ==== Proof.Region0Def.lean ====
/-
  The output array of the fused projection-and-attention region, as one function of the arrays it reads.

  The region's grid has a point per batch b (4 of them) and per pair of heads h2 (8 of them).  Point (b, h2) reads
  rows b*2048 .. b*2048+2047 of the flattened activations and columns h2*128 .. h2*128+127 of each transposed weight
  matrix, and writes rows b*2048 .. and columns h2*128 .. of the output.  So entry (r, f) of the output is the block
  function of point (r / 2048, f / 128) at the block's index (r % 2048, f % 128).
-/
import proofs.«152040_j65481071397869_2_alg».proof.Proof.Block

noncomputable section

namespace Cert.KernelIdeal.Region0

open Cert.KernelIdeal Cert.Attn Idealize.ShloMosaic Idealize.ShloMosaic.ValueIdx

/-- The 2048 rows of batch b of the flattened activations. -/
def rowsOf (Xf : Vec Ideal S8192x1024 .bf16) (b : Fin 4) : Vec Ideal S2048x1024 .bf16 :=
  fun i => Xf (ix2 (⟨b.val * 2048 + (i 0).val, by have := idx2_lt0 i; omega⟩ : Fin 8192) (⟨(i 1).val, idx2_lt1 i⟩ : Fin 1024))

/-- The 128 columns of head pair h2 of a transposed weight matrix. -/
def colsOf (W : Vec Ideal S1024x1024 .bf16) (h2 : Fin 8) : Vec Ideal S1024x128 .bf16 :=
  fun i => W (ix2 (⟨(i 0).val, idx2_lt0 i⟩ : Fin 1024) (⟨h2.val * 128 + (i 1).val, by have := idx2_lt1 i; omega⟩ : Fin 1024))

/-- The region's output array. -/
def G0 (Xf : Vec Ideal S8192x1024 .bf16) (WqT WkT WvT : Vec Ideal S1024x1024 .bf16) : Vec Ideal S8192x1024 .bf16 :=
  fun j => Block.blockAt (rowsOf Xf ⟨(j 0).val / 2048, by have := idx2_lt0 j; omega⟩)
    (colsOf WqT ⟨(j 1).val / 128, by have := idx2_lt1 j; omega⟩)
    (colsOf WkT ⟨(j 1).val / 128, by have := idx2_lt1 j; omega⟩)
    (colsOf WvT ⟨(j 1).val / 128, by have := idx2_lt1 j; omega⟩)
    ⟨(j 0).val % 2048, by omega⟩ ⟨(j 1).val % 128, by omega⟩

end Cert.KernelIdeal.Region0

end
-- ==== Proof.Region0.lean ====
/-
  The first region's output array: from what each grid point writes back to the whole array.

  The grid has 32 points; point t is batch t / 8 and head pair t % 8.  At point t the region reads rows
  (t / 8) * 2048 .. of the flattened activations (all 1024 columns) and columns (t % 8) * 128 .. of each transposed
  weight matrix (all 1024 rows), and writes back the block function of those four blocks to rows (t / 8) * 2048 .. and
  columns (t % 8) * 128 .. of the output.  The 32 output blocks tile the [8192, 1024] array: entry (r, f) lies in the
  block of point (r / 2048) * 8 + f / 128, at the block's index (r % 2048, f % 128).  So after the region the array is
  the one function G0 of the four arrays the region was entered with.
-/
import proofs.«152040_j65481071397869_2_alg».proof.Proof.Region0Def
import proofs.«152040_j65481071397869_2_alg».proof.Proof.Gen.KernelIdeal.Frame
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.Tactic
open Idealize.ShloMosaic.ValueIdx
open Idealize.ShloMosaic.Pipeline (Dat)
open Cert.KernelIdeal Cert.KernelIdeal.Gen Cert.Attn
open Cert.KernelIdeal.Block

/-- The block indices over the grid: point t is batch t / 8 and head pair t % 8.  The activations' block is the
    batch's rows, each weight block the pair's columns, the output's block the batch's rows of the pair's columns. -/
theorem idx_facts0 : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = t.val / 8 ∧ win0_4.index t (1 : Fin 2) = t.val % 8 :=
  (by decide +kernel : ∀ t : Fin grid0.N, _)

/-- The batch and the head pair of a grid point. -/
def batchAt (t : Fin cfg0.N) : Fin 4 := ⟨t.val / 8, by have h : t.val < 32 := lt_of_lt_of_eq t.isLt N_0; omega⟩
def pairAt (t : Fin cfg0.N) : Fin 8 := ⟨t.val % 8, by omega⟩

variable (V : (c : Dev nD) → (b : Ref sig .tc) → Buf (Elt Ideal) ((c : Thread nD τ).loc b))

/-- The activations' block at point t: the 2048 rows of its batch. -/
theorem iblk_rows (c : Dev nD) (t : Fin cfg0.N) :
    (iblk0 V c 0 t : Vec Ideal S2048x1024 .bf16) = rowsOf (V c main_v1) (batchAt t) := by
  obtain ⟨e0, e1, -⟩ := idx_facts0 t
  funext x
  unfold iblk0
  rw [View.read_apply]
  show V c main_v1 _ = V c main_v1 _
  congr 1
  funext a
  apply Fin.ext
  match a with
  | ⟨0, _⟩ => show win0_0.index t 0 * 2048 + 1 * (x 0).val = t.val / 8 * 2048 + (x 0).val; rw [e0]; omega
  | ⟨1, _⟩ => show win0_0.index t 1 * 1024 + 1 * (x 1).val = (x 1).val; rw [e1]; omega

/-- The query weights' block at point t: the 128 columns of its head pair. -/
theorem iblk_cols1 (c : Dev nD) (t : Fin cfg0.N) :
    (iblk0 V c 1 t : Vec Ideal S1024x128 .bf16) = colsOf (V c main_v3) (pairAt t) := by
  obtain ⟨-, -, e2, e3, -⟩ := idx_facts0 t
  funext x
  unfold iblk0
  rw [View.read_apply]
  show V c main_v3 _ = V c main_v3 _
  congr 1
  funext a
  apply Fin.ext
  match a with
  | ⟨0, _⟩ => show win0_1.index t 0 * 1024 + 1 * (x 0).val = (x 0).val; rw [e2]; omega
  | ⟨1, _⟩ => show win0_1.index t 1 * 128 + 1 * (x 1).val = t.val % 8 * 128 + (x 1).val; rw [e3]; omega

/-- The key weights' block at point t: the 128 columns of its head pair. -/
theorem iblk_cols2 (c : Dev nD) (t : Fin cfg0.N) :
    (iblk0 V c 2 t : Vec Ideal S1024x128 .bf16) = colsOf (V c main_v5) (pairAt t) := by
  obtain ⟨-, -, -, -, e4, e5, -⟩ := idx_facts0 t
  funext x
  unfold iblk0
  rw [View.read_apply]
  show V c main_v5 _ = V c main_v5 _
  congr 1
  funext a
  apply Fin.ext
  match a with
  | ⟨0, _⟩ => show win0_2.index t 0 * 1024 + 1 * (x 0).val = (x 0).val; rw [e4]; omega
  | ⟨1, _⟩ => show win0_2.index t 1 * 128 + 1 * (x 1).val = t.val % 8 * 128 + (x 1).val; rw [e5]; omega

/-- The value weights' block at point t: the 128 columns of its head pair. -/
theorem iblk_cols3 (c : Dev nD) (t : Fin cfg0.N) :
    (iblk0 V c 3 t : Vec Ideal S1024x128 .bf16) = colsOf (V c main_v7) (pairAt t) := by
  obtain ⟨-, -, -, -, -, -, e6, e7, -⟩ := idx_facts0 t
  funext x
  unfold iblk0
  rw [View.read_apply]
  show V c main_v7 _ = V c main_v7 _
  congr 1
  funext a
  apply Fin.ext
  match a with
  | ⟨0, _⟩ => show win0_3.index t 0 * 1024 + 1 * (x 0).val = (x 0).val; rw [e6]; omega
  | ⟨1, _⟩ => show win0_3.index t 1 * 128 + 1 * (x 1).val = t.val % 8 * 128 + (x 1).val; rw [e7]; omega

/-- The whole-array function at row b * 2048 + r and column h2 * 128 + cc is the block function of batch b's rows and
    head pair h2's columns at (r, cc). -/
theorem G0_at (Xf : Vec Ideal S8192x1024 .bf16) (W1 W2 W3 : Vec Ideal S1024x1024 .bf16) (b : Fin 4) (h2 : Fin 8)
    (r : Fin 2048) (cc : Fin 128) (j : S8192x1024.Idx)
    (hR : (j 0).val = b.val * 2048 + r.val) (hC : (j 1).val = h2.val * 128 + cc.val) :
    G0 Xf W1 W2 W3 j = blockAt (rowsOf Xf b) (colsOf W1 h2) (colsOf W2 h2) (colsOf W3 h2) r cc := by
  have hj0 : (j 0).val < 8192 := (j 0).isLt
  have hj1 : (j 1).val < 1024 := (j 1).isLt
  have e1 : (⟨(j 0).val / 2048, by omega⟩ : Fin 4) = b := Fin.ext (by show (j 0).val / 2048 = b.val; omega)
  have e2 : (⟨(j 1).val / 128, by omega⟩ : Fin 8) = h2 := Fin.ext (by show (j 1).val / 128 = h2.val; omega)
  have e3 : (⟨(j 0).val % 2048, by omega⟩ : Fin 2048) = r := Fin.ext (by show (j 0).val % 2048 = r.val; omega)
  have e4 : (⟨(j 1).val % 128, by omega⟩ : Fin 128) = cc := Fin.ext (by show (j 1).val % 128 = cc.val; omega)
  show blockAt (rowsOf Xf ⟨(j 0).val / 2048, _⟩) (colsOf W1 ⟨(j 1).val / 128, _⟩) (colsOf W2 ⟨(j 1).val / 128, _⟩)
    (colsOf W3 ⟨(j 1).val / 128, _⟩) ⟨(j 0).val % 2048, _⟩ ⟨(j 1).val % 128, _⟩ = _
  rw [e1, e2, e3, e4]

/-- What point t writes back is block t of the whole-array function of the arrays the region is entered with. -/
theorem flushed_eq0 (c : Dev nD) (t : Fin cfg0.N) :
    (dat0 V c).flushed 4 t
      = ((cfg0.win 4).blk t).view.read (Elt Ideal) (G0 (V c main_v1) (V c main_v3) (V c main_v5) (V c main_v7)) := by
  show (cfg0.win 4).cut (grid0.coords t) ((dat0 V c).after 4 t) = _
  rw [after0_4]
  unfold outsAt0
  rw [out_eq, iblk_rows V c t, iblk_cols1 V c t, iblk_cols2 V c t, iblk_cols3 V c t]
  obtain ⟨-, -, -, -, -, -, -, -, e8, e9⟩ := idx_facts0 t
  refine funext fun (j : S2048x128.Idx) => ?_
  show blockAt (rowsOf (V c main_v1) (batchAt t)) (colsOf (V c main_v3) (pairAt t)) (colsOf (V c main_v5) (pairAt t))
      (colsOf (V c main_v7) (pairAt t)) (j 0) (j 1)
    = G0 (V c main_v1) (V c main_v3) (V c main_v5) (V c main_v7) (((cfg0.win 4).blk t).view.emb j)
  refine (G0_at (V c main_v1) (V c main_v3) (V c main_v5) (V c main_v7) (batchAt t) (pairAt t) (j 0) (j 1) _ ?_ ?_).symm
  · show win0_4.index t 0 * 2048 + 1 * (j 0).val = t.val / 8 * 2048 + (j 0).val; rw [e8]; omega
  · show win0_4.index t 1 * 128 + 1 * (j 1).val = t.val % 8 * 128 + (j 1).val; rw [e9]; omega

/-- An index of the output array is in point t's block iff its row is among the batch's rows and its column among the
    head pair's columns. -/
theorem mem_blk0 (t : Fin cfg0.N) (i : S8192x1024.Idx) :
    i ∈ ((cfg0.win 4).blk t).view.set
      ↔ ∀ a : Fin 2, win0_4.index t a * S2048x128.size a ≤ (i a).val ∧ (i a).val < win0_4.index t a * S2048x128.size a + S2048x128.size a := by
  show i ∈ ((View.whole main_v10).slice (win0_4.rect t)).set ↔ _
  rw [View.set_slice_whole, Rect.mem_set_unit]
  exact Iff.rfl

/-- Every index of the output array is in some point's block: (r, f) is in the block of batch r / 2048 and head pair
    f / 128. -/
theorem cover0 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 32 := N_0
  refine ⟨⟨(i 0).val / 2048 * 8 + (i 1).val / 128, by rw [hN]; omega⟩, flush0_4 _, ?_⟩
  obtain ⟨-, -, -, -, -, -, -, -, e8, e9⟩ := idx_facts0 ⟨(i 0).val / 2048 * 8 + (i 1).val / 128, by rw [hN]; omega⟩
  rw [mem_blk0]
  intro a
  match a with
  | ⟨0, _⟩ =>
    show win0_4.index _ 0 * 2048 ≤ (i 0).val ∧ (i 0).val < win0_4.index _ 0 * 2048 + 2048
    rw [e8]
    show ((i 0).val / 2048 * 8 + (i 1).val / 128) / 8 * 2048 ≤ (i 0).val
      ∧ (i 0).val < ((i 0).val / 2048 * 8 + (i 1).val / 128) / 8 * 2048 + 2048
    omega
  | ⟨1, _⟩ =>
    show win0_4.index _ 1 * 128 ≤ (i 1).val ∧ (i 1).val < win0_4.index _ 1 * 128 + 128
    rw [e9]
    show ((i 0).val / 2048 * 8 + (i 1).val / 128) % 8 * 128 ≤ (i 1).val
      ∧ (i 1).val < ((i 0).val / 2048 * 8 + (i 1).val / 128) % 8 * 128 + 128
    omega

/-- The first region's output array after the region: the whole-array function of the arrays it was entered with. -/
theorem arr0 (c : Dev nD) :
    ((Gen.dat0 (F := Ideal) V c).arrAt 4 cfg0.N : Vec Ideal S8192x1024 .bf16)
      = G0 (V c main_v1) (V c main_v3) (V c main_v5) (V c main_v7) :=
  (dat0 V c).arrAt_eq_of_cover 4 (G0 (V c main_v1) (V c main_v3) (V c main_v5) (V c main_v7))
    (fun t _ => flushed_eq0 V c t) cover0

/-- The array the second region is entered with, as a function of the arrays the first region was entered with. -/
theorem V2_out (m : (ℓ : Loc nD τ sig) → Buf (Elt Ideal) ℓ) (ρ : Dev nD → PrngReg) (c : Dev nD) :
    (Gen.V2 m ρ c main_v10 : SF.Idx → EReal)
      = G0 (Gen.V1 m ρ c main_v1) (Gen.V1 m ρ c main_v3) (Gen.V1 m ρ c main_v5) (Gen.V1 m ρ c main_v7) :=
  (Gen.W2_arr m ρ c 4).trans (arr0 (Gen.V1 m ρ) c)

end Cert.KernelIdeal.Region0

end
-- ==== Proof.Region0Math.lean ====
/-
  The fused region's output is the concatenated heads.

  Read through the layouts the host prepares — the activations with batch and position flattened into one row
  axis, the weight matrices transposed — a grid point's block projection is the specification's projection: rows
  b*2048 .. of the flattened activations are batch b, and column h2*128 + j of a transposed weight matrix is row
  h2*128 + j of the matrix.  Inside a pair of heads the columns of one head are 64 consecutive ones, so column d of
  the head that feature column f belongs to is f / 64 * 64 + d whether counted inside the pair or in the whole.
  Nothing here needs a finiteness hypothesis: the two sides are the same sums of the same products.
-/
import proofs.«152040_j65481071397869_2_alg».proof.Proof.Region0Def

noncomputable section

namespace Cert.KernelIdeal.Region0

open Idealize.ShloMosaic Idealize.ShloMosaic.ValueIdx Cert.Attn Cert.KernelIdeal Cert.KernelIdeal.Block

/-- Rows b*2048 .. b*2048+2047 of the flattened activations are batch b. -/
theorem rowsOf_apply (X : SX.Idx → EReal) (b : Fin 4) (r : Fin 2048) (e : Fin 1024) :
    rowsOf (fun j => X (ix3 (batchOf (j 0)) (posOf (j 0)) (j 1))) b (ix2 r e) = X (ix3 b r e) := by
  show X (ix3 (batchOf (rowOf b r)) (posOf (rowOf b r)) e) = _
  rw [batchOf_rowOf, posOf_rowOf]

/-- Columns h2*128 .. h2*128+127 of a transposed weight matrix are rows h2*128 .. of the matrix itself. -/
theorem colsOf_apply (W : SW.Idx → EReal) (h2 : Fin 8) (e : Fin 1024) (j : Fin 128) :
    colsOf (fun i => W (ix2 (i 1) (i 0))) h2 (ix2 e j) = W (ix2 (⟨h2.val * 128 + j.val, by omega⟩ : Fin 1024) e) := rfl

/-- A block projection of batch b by the columns of head pair h2 is the projection's column h2*128 + j. -/
theorem projBlk_apply (X : SX.Idx → EReal) (W : SW.Idx → EReal) (b : Fin 4) (h2 : Fin 8) (r : Fin 2048) (j : Fin 128) :
    projBlk (rowsOf (fun j => X (ix3 (batchOf (j 0)) (posOf (j 0)) (j 1))) b) (colsOf (fun i => W (ix2 (i 1) (i 0))) h2) r j
      = proj X W b r (⟨h2.val * 128 + j.val, by omega⟩ : Fin 1024) := by
  unfold projBlk proj
  exact Finset.sum_congr rfl fun e _ => by rw [rowsOf_apply, colsOf_apply]

/-- Column d of the head that feature column f belongs to, counted inside f's pair of heads and in the whole. -/
theorem pair_half (f : Fin 1024) (d : Fin 64) :
    (⟨f.val / 128 * 128 + (half (⟨f.val % 128, by omega⟩ : Fin 128) d).val, by
        have : (half (⟨f.val % 128, by omega⟩ : Fin 128) d).val < 128 := (half _ d).isLt; omega⟩ : Fin 1024)
      = hcol (headOf f) d := by
  apply Fin.ext
  show f.val / 128 * 128 + (f.val % 128 / 64 * 64 + d.val) = f.val / 64 * 64 + d.val
  omega

/-- A feature column is column f % 128 of pair f / 128, and column f % 64 of head f / 64. -/
theorem pair_col (f : Fin 1024) :
    (⟨f.val / 128 * 128 + f.val % 128, by omega⟩ : Fin 1024) = hcol (headOf f) (colOf f) := by
  apply Fin.ext
  show f.val / 128 * 128 + f.val % 128 = f.val / 64 * 64 + f.val % 64
  omega

/-- The block of batch b and of f's pair of heads, at row s and f's column in the pair, is the attention output. -/
theorem blockAt_spec (X : SX.Idx → EReal) (Wq Wk Wv : SW.Idx → EReal) (b : Fin 4) (s : Fin 2048) (f : Fin 1024) :
    blockAt (rowsOf (fun j => X (ix3 (batchOf (j 0)) (posOf (j 0)) (j 1))) b)
        (colsOf (fun i => Wq (ix2 (i 1) (i 0))) (⟨f.val / 128, by omega⟩ : Fin 8))
        (colsOf (fun i => Wk (ix2 (i 1) (i 0))) (⟨f.val / 128, by omega⟩ : Fin 8))
        (colsOf (fun i => Wv (ix2 (i 1) (i 0))) (⟨f.val / 128, by omega⟩ : Fin 8))
        s (⟨f.val % 128, by omega⟩ : Fin 128)
      = attCat X Wq Wk Wv b s f := by
  unfold blockAt attCat att score
  have hσ : (fun k : Fin 2048 => ∑ d : Fin 64,
        (projBlk (rowsOf (fun j => X (ix3 (batchOf (j 0)) (posOf (j 0)) (j 1))) b)
            (colsOf (fun i => Wq (ix2 (i 1) (i 0))) (⟨f.val / 128, by omega⟩ : Fin 8)) s
            (half (⟨f.val % 128, by omega⟩ : Fin 128) d) * scale8)
          * projBlk (rowsOf (fun j => X (ix3 (batchOf (j 0)) (posOf (j 0)) (j 1))) b)
            (colsOf (fun i => Wk (ix2 (i 1) (i 0))) (⟨f.val / 128, by omega⟩ : Fin 8)) k
            (half (⟨f.val % 128, by omega⟩ : Fin 128) d))
      = fun k : Fin 2048 => ∑ d : Fin 64,
        (proj X Wq b s (hcol (headOf f) d) * scale8) * proj X Wk b k (hcol (headOf f) d) := by
    funext k
    refine Finset.sum_congr rfl fun d _ => ?_
    rw [projBlk_apply, projBlk_apply]
    exact congrArg (fun c => (proj X Wq b s c * scale8) * proj X Wk b k c) (pair_half f d)
  have hv : (fun k : Fin 2048 =>
        projBlk (rowsOf (fun j => X (ix3 (batchOf (j 0)) (posOf (j 0)) (j 1))) b)
          (colsOf (fun i => Wv (ix2 (i 1) (i 0))) (⟨f.val / 128, by omega⟩ : Fin 8)) k (⟨f.val % 128, by omega⟩ : Fin 128))
      = fun k : Fin 2048 => proj X Wv b k (hcol (headOf f) (colOf f)) := by
    funext k
    rw [projBlk_apply]
    exact congrArg (fun c => proj X Wv b k c) (pair_col f)
  rw [hσ, hv]

/-- The region's output, as one function of the flattened activations and the transposed weights, is the
    concatenated heads in the flattened layout. -/
theorem G0_spec (X : SX.Idx → EReal) (Wq Wk Wv : SW.Idx → EReal) :
    G0 (fun j => X (ix3 (batchOf (j 0)) (posOf (j 0)) (j 1))) (fun j => Wq (ix2 (j 1) (j 0)))
        (fun j => Wk (ix2 (j 1) (j 0))) (fun j => Wv (ix2 (j 1) (j 0)))
      = attFlat X Wq Wk Wv := by
  funext j
  obtain ⟨r, f, rfl⟩ : ∃ (r : Fin 8192) (f : Fin 1024), j = ix2 r f := ⟨j 0, j 1, eq_ix2 j⟩
  rw [attFlat_ix2]
  exact blockAt_spec X Wq Wk Wv (batchOf r) (posOf r) f

end Cert.KernelIdeal.Region0

end
-- ==== Proof.RefScale.lean ====
/-
  The arithmetic that joins "divide the whole score by the square root of the head width" to "multiply each
  query entry by one eighth inside the sum".

  The head width is 64, its square root is 8, and the float 0.125 is exactly 1/8.  Dividing an extended real by
  the real number 8 is multiplying it by 1/8, at the infinities too.  Moving that factor from outside the sum over
  the head's 64 columns onto each query entry is distributivity, which holds for real numbers and fails at an
  infinity: so the law is stated for rows of real numbers, and the projections are real because the activations
  and the weights are.
-/
import proofs.«152040_j65481071397869_2_alg».proof.Proof.Spec

noncomputable section

namespace Cert.Attn.Ref

open Idealize.ShloMosaic Idealize.ShloMosaic.ValueIdx Cert.Attn

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real numbers is a real number. -/
theorem real_mul {x y : EReal} (hx : ∃ r : ℝ, x = (r : EReal)) (hy : ∃ r : ℝ, y = (r : EReal)) :
    ∃ r : ℝ, x * y = (r : EReal) := by
  obtain ⟨r, rfl⟩ := hx
  obtain ⟨t, rfl⟩ := hy
  exact ⟨r * t, (EReal.coe_mul r t).symm⟩

/-- A finite sum of real numbers is a real number. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A projection of real activations by real weights is real. -/
theorem proj_real (X : SX.Idx → EReal) (W : SW.Idx → EReal)
    (hX : ∀ i, ∃ r : ℝ, X i = (r : EReal)) (hW : ∀ i, ∃ r : ℝ, W i = (r : EReal))
    (b : Fin 4) (s : Fin 2048) (f : Fin 1024) : ∃ r : ℝ, proj X W b s f = (r : EReal) :=
  real_sum _ _ fun e => real_mul (hX _) (hW _)

/-- The float 64.0 is the real number 64. -/
theorem ofBits_64 : Ideal.ofBits .f32 0x42800000#32 = ((64 : ℝ) : EReal) := by
  simp [Ideal.ofBits, Ideal.ieee, -EReal.coe_mul]; norm_num

/-- The square root of the float 64.0 is the real number 8. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- The float 0.125 is the real number 1/8. -/
theorem scale8_eq : scale8 = ((1 / 8 : ℝ) : EReal) := by
  show Ideal.ofBits .f32 0x3E000000#32 = _
  simp [Ideal.ofBits, Ideal.ieee, -EReal.coe_mul]; norm_num

/-- Dividing by the square root of 64 is multiplying by the float 0.125, whatever is divided. -/
theorem div_sqrt_64 (x : EReal) :
    Ideal.div x (Ideal.sqrt (Ideal.ofBits .f32 0x42800000#32)) = x * scale8 := by
  rw [sqrt_64, Ideal.div_coe (by norm_num : (8 : ℝ) ≠ 0), scale8_eq]

/-- For rows of real numbers a factor outside the sum of products may be put on the left factor of each product. -/
theorem sum_mul_scale {ι : Type*} [Fintype ι] (a b : ι → EReal) (c : ℝ)
    (ha : ∀ d, ∃ r : ℝ, a d = (r : EReal)) (hb : ∀ d, ∃ r : ℝ, b d = (r : EReal)) :
    (∑ d, a d * b d) * (c : EReal) = ∑ d, (a d * (c : EReal)) * b d := by
  choose a' ha' using ha
  choose b' hb' using hb
  have e1 : ∀ d, a d * b d = ((a' d * b' d : ℝ) : EReal) := fun d => by rw [ha', hb', EReal.coe_mul]
  have e2 : ∀ d, (a d * (c : EReal)) * b d = ((a' d * c * b' d : ℝ) : EReal) := fun d => by
    rw [ha', hb', EReal.coe_mul, EReal.coe_mul]
  simp only [e1, e2]
  rw [← coe_sum, ← coe_sum, ← EReal.coe_mul, Finset.sum_mul]
  exact congrArg _ (Finset.sum_congr rfl fun d _ => by ring)

/-- The reference's scaled score is the specification's: for rows of real numbers, the sum of products divided by
    the square root of 64 is the sum of the products whose left factor carries the float 0.125. -/
theorem div_sqrt_64_sum {ι : Type*} [Fintype ι] (a b : ι → EReal)
    (ha : ∀ d, ∃ r : ℝ, a d = (r : EReal)) (hb : ∀ d, ∃ r : ℝ, b d = (r : EReal)) :
    Ideal.div (∑ d, a d * b d) (Ideal.sqrt (Ideal.ofBits .f32 0x42800000#32)) = ∑ d, (a d * scale8) * b d := by
  rw [div_sqrt_64, scale8_eq]
  exact sum_mul_scale a b _ ha hb

end Cert.Attn.Ref

end
-- ==== Proof.RefProj.lean ====
/-
  The reference's three projections, read entry by entry.

  The reference multiplies the activations by a transposed weight matrix, cuts the 1024 feature columns into 16
  heads of 64 columns, and moves the head axis in front of the position axis.  Entry (b, h, s, d) of the result is
  therefore the projection's entry (b, s, h*64+d): in row-major order the flat position of (b, s, h, d) in a
  [4, 2048, 16, 64] array and of (b, s, h*64+d) in a [4, 2048, 1024] array are the same number.
-/
import proofs.«152040_j65481071397869_2_alg».proof.Proof.Gen.ReferenceIdeal.Read
import proofs.«152040_j65481071397869_2_alg».proof.Proof.Spec

noncomputable section

namespace Cert.Attn.Ref

open Idealize.ShloMosaic Idealize.ShloMosaic.ValueIdx Cert.Attn Cert.ReferenceIdeal Cert.ReferenceIdeal.Read

/-- The flat position of (b, s, h, d) among [4, 2048, 16, 64] is that of (b, s, h*64+d) among [4, 2048, 1024]. -/
theorem idx_split (b : Fin 4) (s : Fin 2048) (h : Fin 16) (d : Fin 64) :
    idx_main_v1 (ix4 b s h d) = ix3 b s (hcol h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

/-- Moving the head axis in front of the position axis swaps the two coordinates. -/
theorem idx_swap (b : Fin 4) (h : Fin 16) (s : Fin 2048) (d : Fin 64) :
    idx_main_v2 (ix4 b h s d) = ix4 b s h d :=
  funext fun a => Fin.ext (by
    match a with
    | ⟨0, _⟩ => rfl
    | ⟨1, _⟩ => rfl
    | ⟨2, _⟩ => rfl
    | ⟨3, _⟩ => rfl)

theorem lidx_proj (b : Fin 4) (s : Fin 2048) (f : Fin 1024) (e : Fin 1024) :
    lidx_main_v0 (ix3 b s f) e = ix3 b s e :=
  funext fun a => Fin.ext (by
    match a with
    | ⟨0, _⟩ => rfl
    | ⟨1, _⟩ => rfl
    | ⟨2, _⟩ => rfl)

theorem ridx_proj (b : Fin 4) (s : Fin 2048) (f : Fin 1024) (e : Fin 1024) :
    ridx_main_v0 (ix3 b s f) e = ix2 f e :=
  funext fun a => Fin.ext (by
    match a with
    | ⟨0, _⟩ => rfl
    | ⟨1, _⟩ => rfl)

/-- The first product is the projection. -/
theorem v0_apply (X : SX.Idx → EReal) (W : SW.Idx → EReal) (b : Fin 4) (s : Fin 2048) (f : Fin 1024) :
    val_main_v0 (F := Ideal) X W (ix3 b s f) = proj X W b s f := by
  rw [val_main_v0_apply]
  unfold proj
  exact Finset.sum_congr rfl fun e _ => by rw [lidx_proj, ridx_proj]

/-- The query projection cut into heads: entry (b, h, s, d) is the projection's entry (b, s, h*64+d). -/
theorem v2_apply (X : SX.Idx → EReal) (W : SW.Idx → EReal) (b : Fin 4) (h : Fin 16) (s : Fin 2048) (d : Fin 64) :
    val_main_v2 (F := Ideal) X W (ix4 b h s d) = proj X W b s (hcol h d) := by
  rw [val_main_v2_apply, idx_swap, val_main_v1_apply, idx_split, v0_apply]

/-- The key projection cut into heads. -/
theorem v5_apply (X : SX.Idx → EReal) (W : SW.Idx → EReal) (b : Fin 4) (h : Fin 16) (s : Fin 2048) (d : Fin 64) :
    val_main_v5 (F := Ideal) X W (ix4 b h s d) = proj X W b s (hcol h d) :=
  v2_apply X W b h s d

/-- The value projection cut into heads. -/
theorem v8_apply (X : SX.Idx → EReal) (W : SW.Idx → EReal) (b : Fin 4) (h : Fin 16) (s : Fin 2048) (d : Fin 64) :
    val_main_v8 (F := Ideal) X W (ix4 b h s d) = proj X W b s (hcol h d) :=
  v2_apply X W b h s d

end Cert.Attn.Ref

end
-- ==== Proof.RefScore.lean ====
/-
  The reference's scores and their row maxima, read entry by entry.

  The raw score of query position q against key position k in head h is the sum over the head's 64 columns of the
  products of the two projections; the reference divides it by the square root of 64, which for real projections
  is the specification's score with the factor 1/8 on each query entry.  The row maximum is the reference's
  reduction with the maximum from minus infinity over the key positions; taking the maximum with minus infinity
  once more changes nothing, because a maximum started from minus infinity is at least minus infinity.
-/
import proofs.«152040_j65481071397869_2_alg».proof.Proof.RefScale
import proofs.«152040_j65481071397869_2_alg».proof.Proof.RefProj
import Idealize.ShloMosaic.PureOps.Reduce

noncomputable section

namespace Cert.Attn.Ref

open Idealize.ShloMosaic Idealize.ShloMosaic.ValueIdx Cert.Attn Cert.ReferenceIdeal Cert.ReferenceIdeal.Read

theorem lidx_score (b : Fin 4) (h : Fin 16) (q k : Fin 2048) (d : Fin 64) :
    lidx_main_v9 (ix4 b h q k) d = ix4 b h q d :=
  funext fun a => Fin.ext (by
    match a with
    | ⟨0, _⟩ => rfl
    | ⟨1, _⟩ => rfl
    | ⟨2, _⟩ => rfl
    | ⟨3, _⟩ => rfl)

theorem ridx_score (b : Fin 4) (h : Fin 16) (q k : Fin 2048) (d : Fin 64) :
    ridx_main_v9 (ix4 b h q k) d = ix4 b h k d :=
  funext fun a => Fin.ext (by
    match a with
    | ⟨0, _⟩ => rfl
    | ⟨1, _⟩ => rfl
    | ⟨2, _⟩ => rfl
    | ⟨3, _⟩ => rfl)

/-- The raw score: the sum over a head's columns of query entry times key entry. -/
theorem v9_apply (X : SX.Idx → EReal) (Wq Wk : SW.Idx → EReal) (b : Fin 4) (h : Fin 16) (q k : Fin 2048) :
    val_main_v9 (F := Ideal) X Wq Wk (ix4 b h q k)
      = ∑ d : Fin 64, proj X Wq b q (hcol h d) * proj X Wk b k (hcol h d) := by
  rw [val_main_v9_apply]
  exact Finset.sum_congr rfl fun d _ => by rw [lidx_score, ridx_score, v2_apply, v5_apply]

/-- The divisor is the square root of the float 64.0 at every entry. -/
theorem v11_apply (i : S4x16x2048x2048.Idx) :
    val_main_v11 (F := Ideal) i = Ideal.sqrt (Ideal.ofBits .f32 0x42800000#32) := by
  rw [val_main_v11_apply, val_main_v10_apply, val_main_cst_apply]
  rfl

/-- Dropping the key axis of the score array leaves (batch, head, query). -/
theorem reduces_row : S4x16x2048x2048.Reduces [3] S4x16x2048 := by decide

/-- The row (b, h, q) with key position k put back is (b, h, q, k). -/
theorem lift_row (b : Fin 4) (h : Fin 16) (q : Fin 2048) (k : Fin (S4x16x2048x2048.size 3)) :
    reduces_row.lift (ix3 b h q) k = ix4 b h q (⟨k.val, k.isLt⟩ : Fin 2048) := by
  funext c; apply Fin.ext
  fin_cases c <;> rfl

section
variable (X : SX.Idx → EReal) (Wq Wk : SW.Idx → EReal)
  (hX : ∀ i, ∃ r : ℝ, X i = (r : EReal)) (hq : ∀ i, ∃ r : ℝ, Wq i = (r : EReal))
  (hk : ∀ i, ∃ r : ℝ, Wk i = (r : EReal))
include hX hq hk

/-- The scaled score is the specification's, for real activations and weights. -/
theorem v12_apply (b : Fin 4) (h : Fin 16) (q k : Fin 2048) :
    val_main_v12 (F := Ideal) X Wq Wk (ix4 b h q k) = score X Wq Wk b h q k := by
  rw [val_main_v12_apply, v9_apply, v11_apply]
  show Ideal.div _ _ = _
  unfold score
  exact div_sqrt_64_sum _ _ (fun d => proj_real X Wq hX hq b q _) (fun d => proj_real X Wk hX hk b k _)

/-- The reference's reduction with the maximum is the row maximum of the scores. -/
theorem v13_apply (b : Fin 4) (h : Fin 16) (q : Fin 2048) :
    val_main_v13 (F := Ideal) X Wq Wk (ix3 b h q) = rowMax (fun k => score X Wq Wk b h q k) := by
  unfold val_main_v13
  rw [Host.reduce_eq_fold_single FloatOps.maximumf _ _ _ reduces_row]
  have hf : (val_main_v12 (F := Ideal) X Wq Wk ∘ reduces_row.lift (ix3 b h q))
      = fun k : Fin 2048 => score X Wq Wk b h q k := funext fun k => by
    show val_main_v12 (F := Ideal) X Wq Wk (reduces_row.lift (ix3 b h q) k) = _
    rw [lift_row, v12_apply X Wq Wk hX hq hk]
    rfl
  rw [hf]
  rfl

/-- The maximum with minus infinity once more is still the row maximum. -/
theorem v15_apply (b : Fin 4) (h : Fin 16) (q : Fin 2048) :
    val_main_v15 (F := Ideal) X Wq Wk (ix3 b h q) = rowMax (fun k => score X Wq Wk b h q k) := by
  rw [val_main_v15_apply, v13_apply X Wq Wk hX hq hk, val_main_v14_apply, val_main_cst_1_apply]
  show max negInf (rowMax _) = _
  exact max_eq_right ((Finset.le_fold_max _).2 (Or.inl le_rfl))

end

end Cert.Attn.Ref

end
-- ==== Proof.RefValue.lean ====
/-
  The reference is the specification.

  With the scores and their row maxima read (the previous module), the rest of the reference is read entry by
  entry in its own order: the exponentials of the scores less the row maximum, their row sums (a sum started from
  zero), the quotients, the product with the value projection, the heads laid side by side along the feature axis,
  and the product with the output weights.  The row maximum and the row sum are stored once per row and spread
  along the key axis, so every key position of a row reads the same number.
-/
import proofs.«152040_j65481071397869_2_alg».proof.Proof.RefScore

noncomputable section

namespace Cert.Attn.Ref

open Idealize.ShloMosaic Idealize.ShloMosaic.ValueIdx Cert.Attn Cert.ReferenceIdeal Cert.ReferenceIdeal.Read

/-- A row's stored number is read at key position 0 of a key axis of length one. -/
theorem idx_spread (b : Fin 4) (h : Fin 16) (q k : Fin 2048) :
    idx_main_v17 (ix4 b h q k) = ix4 b h q (0 : Fin 1) :=
  funext fun a => Fin.ext (by
    match a with
    | ⟨0, _⟩ => rfl
    | ⟨1, _⟩ => rfl
    | ⟨2, _⟩ => rfl
    | ⟨3, _⟩ => rfl)

theorem idx_keep (b : Fin 4) (h : Fin 16) (q : Fin 2048) (z : Fin 1) :
    idx_main_v16 (ix4 b h q z) = ix3 b h q :=
  funext fun a => Fin.ext (by
    match a with
    | ⟨0, _⟩ => rfl
    | ⟨1, _⟩ => rfl
    | ⟨2, _⟩ => rfl)

theorem idx_rowsum (b : Fin 4) (h : Fin 16) (q k : Fin 2048) :
    idx_main_v20 (ix3 b h q) k = ix4 b h q k :=
  funext fun a => Fin.ext (by
    match a with
    | ⟨0, _⟩ => rfl
    | ⟨1, _⟩ => rfl
    | ⟨2, _⟩ => rfl
    | ⟨3, _⟩ => rfl)

theorem lidx_att (b : Fin 4) (h : Fin 16) (s : Fin 2048) (d : Fin 64) (k : Fin 2048) :
    lidx_main_v24 (ix4 b h s d) k = ix4 b h s k :=
  funext fun a => Fin.ext (by
    match a with
    | ⟨0, _⟩ => rfl
    | ⟨1, _⟩ => rfl
    | ⟨2, _⟩ => rfl
    | ⟨3, _⟩ => rfl)

theorem ridx_att (b : Fin 4) (h : Fin 16) (s : Fin 2048) (d : Fin 64) (k : Fin 2048) :
    ridx_main_v24 (ix4 b h s d) k = ix4 b h k d :=
  funext fun a => Fin.ext (by
    match a with
    | ⟨0, _⟩ => rfl
    | ⟨1, _⟩ => rfl
    | ⟨2, _⟩ => rfl
    | ⟨3, _⟩ => rfl)

/-- Moving the position axis back in front of the head axis swaps the two coordinates. -/
theorem idx_unswap (b : Fin 4) (s : Fin 2048) (h : Fin 16) (d : Fin 64) :
    idx_main_v25 (ix4 b s h d) = ix4 b h s d :=
  funext fun a => Fin.ext (by
    match a with
    | ⟨0, _⟩ => rfl
    | ⟨1, _⟩ => rfl
    | ⟨2, _⟩ => rfl
    | ⟨3, _⟩ => rfl)

/-- The flat position of (b, s, f) among [4, 2048, 1024] is that of (b, s, f / 64, f % 64) among [4, 2048, 16, 64]. -/
theorem idx_join (b : Fin 4) (s : Fin 2048) (f : Fin 1024) :
    idx_main_v26 (ix3 b s f) = ix4 b s (headOf f) (colOf f) :=
  funext fun a => Fin.ext (by
    have hb := b.isLt; have hs := s.isLt; have hf := f.isLt
    match a with
    | ⟨0, _⟩ => show ((b.val * 2048 + s.val) * 1024 + f.val) / 2097152 = b.val; omega
    | ⟨1, _⟩ => show ((b.val * 2048 + s.val) * 1024 + f.val) / 1024 % 2048 = s.val; omega
    | ⟨2, _⟩ => show ((b.val * 2048 + s.val) * 1024 + f.val) / 64 % 16 = f.val / 64; omega
    | ⟨3, _⟩ => show ((b.val * 2048 + s.val) * 1024 + f.val) % 64 = f.val % 64; omega)

theorem lidx_out (b : Fin 4) (s : Fin 2048) (e f : Fin 1024) :
    lidx_main_v27 (ix3 b s e) f = ix3 b s f :=
  funext fun a => Fin.ext (by
    match a with
    | ⟨0, _⟩ => rfl
    | ⟨1, _⟩ => rfl
    | ⟨2, _⟩ => rfl)

theorem ridx_out (b : Fin 4) (s : Fin 2048) (e f : Fin 1024) :
    ridx_main_v27 (ix3 b s e) f = ix2 e f :=
  funext fun a => Fin.ext (by
    match a with
    | ⟨0, _⟩ => rfl
    | ⟨1, _⟩ => rfl)

section
variable (X : SX.Idx → EReal) (Wq Wk : SW.Idx → EReal)
  (hX : ∀ i, ∃ r : ℝ, X i = (r : EReal)) (hq : ∀ i, ∃ r : ℝ, Wq i = (r : EReal))
  (hk : ∀ i, ∃ r : ℝ, Wk i = (r : EReal))
include hX hq hk

/-- The row maximum spread along the key axis. -/
theorem v17_apply (b : Fin 4) (h : Fin 16) (q k : Fin 2048) :
    val_main_v17 (F := Ideal) X Wq Wk (ix4 b h q k) = rowMax (fun k' => score X Wq Wk b h q k') := by
  rw [val_main_v17_apply, idx_spread, val_main_v16_apply, idx_keep, v15_apply X Wq Wk hX hq hk]

/-- The exponential of a score less its row maximum. -/
theorem v19_apply (b : Fin 4) (h : Fin 16) (q k : Fin 2048) :
    val_main_v19 (F := Ideal) X Wq Wk (ix4 b h q k)
      = Ideal.exp (score X Wq Wk b h q k - rowMax (fun k' => score X Wq Wk b h q k')) := by
  rw [val_main_v19_apply, val_main_v18_apply, v12_apply X Wq Wk hX hq hk, v17_apply X Wq Wk hX hq hk]
  rfl

/-- The row sum of the exponentials: a sum started from the float zero. -/
theorem v20_apply (b : Fin 4) (h : Fin 16) (q : Fin 2048) :
    val_main_v20 (F := Ideal) X Wq Wk (ix3 b h q)
      = ∑ k : Fin 2048, Ideal.exp (score X Wq Wk b h q k - rowMax (fun k' => score X Wq Wk b h q k')) := by
  rw [val_main_v20_apply, val_main_cst_2_apply]
  show Ideal.ofBits .f32 0x00000000#32 + _ = _
  rw [Ideal.ofBits_zero_f32, zero_add]
  exact Finset.sum_congr rfl fun k _ => by rw [idx_rowsum, v19_apply X Wq Wk hX hq hk]

/-- The row sum spread along the key axis. -/
theorem v22_apply (b : Fin 4) (h : Fin 16) (q k : Fin 2048) :
    val_main_v22 (F := Ideal) X Wq Wk (ix4 b h q k)
      = ∑ k'' : Fin 2048, Ideal.exp (score X Wq Wk b h q k'' - rowMax (fun k' => score X Wq Wk b h q k')) := by
  rw [val_main_v22_apply]
  show val_main_v21 (F := Ideal) X Wq Wk (idx_main_v17 (ix4 b h q k)) = _
  rw [idx_spread, val_main_v21_apply]
  show val_main_v20 (F := Ideal) X Wq Wk (idx_main_v16 (ix4 b h q (0 : Fin 1))) = _
  rw [idx_keep, v20_apply X Wq Wk hX hq hk]

/-- The softmax weight of key position k in row (b, h, q). -/
theorem v23_apply (b : Fin 4) (h : Fin 16) (q k : Fin 2048) :
    val_main_v23 (F := Ideal) X Wq Wk (ix4 b h q k)
      = Ideal.div (Ideal.exp (score X Wq Wk b h q k - rowMax (fun k' => score X Wq Wk b h q k')))
          (∑ k'' : Fin 2048, Ideal.exp (score X Wq Wk b h q k'' - rowMax (fun k' => score X Wq Wk b h q k'))) := by
  rw [val_main_v23_apply, v19_apply X Wq Wk hX hq hk, v22_apply X Wq Wk hX hq hk]
  rfl

variable (Wv : SW.Idx → EReal)

/-- The attention output of one head. -/
theorem v24_apply (b : Fin 4) (h : Fin 16) (s : Fin 2048) (d : Fin 64) :
    val_main_v24 (F := Ideal) X Wq Wk Wv (ix4 b h s d) = att X Wq Wk Wv b s h d := by
  rw [val_main_v24_apply]
  unfold att rowAttn
  exact Finset.sum_congr rfl fun k _ => by
    rw [lidx_att, ridx_att, v23_apply X Wq Wk hX hq hk, v8_apply]

/-- The heads laid side by side along the feature axis. -/
theorem v26_apply (b : Fin 4) (s : Fin 2048) (f : Fin 1024) :
    val_main_v26 (F := Ideal) X Wq Wk Wv (ix3 b s f) = attCat X Wq Wk Wv b s f := by
  rw [val_main_v26_apply, idx_join, val_main_v25_apply, idx_unswap, v24_apply X Wq Wk hX hq hk]
  rfl

end

/-- The reference computes the specification's result, for real activations and real query and key weights. -/
theorem ref_value (X : SX.Idx → EReal) (Wq Wk Wv Wo : SW.Idx → EReal)
    (hX : ∀ i, ∃ r : ℝ, X i = (r : EReal)) (hq : ∀ i, ∃ r : ℝ, Wq i = (r : EReal))
    (hk : ∀ i, ∃ r : ℝ, Wk i = (r : EReal)) :
    val_main_v27 (F := Ideal) X Wq Wk Wv Wo = result X Wq Wk Wv Wo := by
  funext i
  obtain ⟨b, s, e, rfl⟩ : ∃ (b : Fin 4) (s : Fin 2048) (e : Fin 1024), i = ix3 b s e := ⟨i 0, i 1, i 2, eq_ix3 i⟩
  rw [val_main_v27_apply, result_ix3]
  unfold resultAt
  exact Finset.sum_congr rfl fun f _ => by
    rw [lidx_out, ridx_out, v26_apply X Wq Wk hX hq hk]

end Cert.Attn.Ref

end
-- ==== Proof.Finite.lean ====
/-
  From the precondition to "every entry is a real number".

  The precondition says, of each argument array, that every entry's absolute value is below plus infinity, and
  joins the five statements by "and".  An extended real whose absolute value is below plus infinity is neither
  infinity, so it is a real number.  Read for the activations and for the query and key weights, which is all the
  scale law needs.
-/
import proofs.«152040_j65481071397869_2_alg».proof.Defs
import proofs.«152040_j65481071397869_2_alg».proof.Proof.Spec
import Idealize.ShloMosaic.Lib.ReduceAll
import Idealize.ShloMosaic.Lib.Pipeline.Value
import Idealize.ShloMosaic.Lib.ValueIdx

noncomputable section

namespace Cert.Attn.Fin

open Idealize.ShloMosaic Idealize.ShloMosaic.ValueIdx Cert.Attn

/-- The scalar shape has one index. -/
instance : Subsingleton (⟨0, ![]⟩ : Shape).Idx := ⟨fun _ _ => funext fun d => d.elim0⟩

/-- The pattern of plus infinity denotes plus infinity. -/
theorem ofBits_inf : Ideal.ofBits .f32 0x7F800000#32 = ⊤ := by simp [Ideal.ofBits, Ideal.ieee]

/-- An extended real whose absolute value is below plus infinity is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [ofBits_inf] at h
  unfold Ideal.cmp at h
  induction x using EReal.rec with
  | bot => simp at h
  | coe r => exact ⟨r, rfl⟩
  | top => simp at h

/-- If the conjunction over all entries of "absolute value below plus infinity" holds, every entry is real. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1) :
    ∀ i, ∃ r : ℝ, x i = (r : EReal) := by
  intro i
  have h1 := Host.reduce_andi_all _ _ hr hu ix0 e i
  have hc : broadcastInDim s ![] hb (constant (F := Ideal) (⟨0, ![]⟩ : Shape) .f32 0x7F800000#32) i
      = FloatOps.ofBits (F := Ideal) .f32 0x7F800000#32 :=
    broadcastInDim_apply _ hb _ i ix0 (fun a => a.elim0)
  rw [cmpf_apply, hc] at h1
  exact real_of_abs_lt_inf _ h1

/-- The precondition, as a statement about five arrays, makes the first three real. -/
theorem real_of_fn [Cert.Pre_finite_inputs.Facts] (a0 : SX.Idx → EReal) (a1 a2 a3 a4 : SW.Idx → EReal)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn, Cert.Pre_finite_inputs.fn_part1] at h0
  obtain ⟨h0123, _⟩ := IntOp.andi_eq_one.1 h0
  obtain ⟨h012, _⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2⟩

/-- Under the precondition the activations and the query and key weights in the kernel's memory are real. -/
theorem finite_of_pre [hP : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i, ∃ r : ℝ, (m ((c.tc : Thread Cert.KernelIdeal.nD Cert.KernelIdeal.τ).loc Cert.KernelIdeal.main_arg0) : SX.Idx → EReal) i = (r : EReal))
    ∧ (∀ i, ∃ r : ℝ, (m ((c.tc : Thread Cert.KernelIdeal.nD Cert.KernelIdeal.τ).loc Cert.KernelIdeal.main_arg1) : SW.Idx → EReal) i = (r : EReal))
    ∧ (∀ i, ∃ r : ℝ, (m ((c.tc : Thread Cert.KernelIdeal.nD Cert.KernelIdeal.τ).loc Cert.KernelIdeal.main_arg2) : SW.Idx → EReal) i = (r : EReal)) :=
  real_of_fn _ _ _ _ _ (hm c)

end Cert.Attn.Fin

end
-- ==== Proof.Algebraic.lean ====
/-
  The two idealized programs compute one function.

  Kernel side: the run ends with the result buffer at the final reshape of the second region's output array; that array
  is the first region's output array times the transposed output weights; the first region's output array is, block by
  block, the attention block function of the flattened activations and the transposed weight matrices, which is the
  specification's concatenated heads in the flattened layout.  So the result is the specification's result of the five
  argument arrays.

  Reference side: the run ends with the result buffer at the composed term of its thirty-two operations, which read
  entry by entry is the specification's result as well — given that the activations and the query and key weights are
  real numbers, which the precondition says (every input is finite): that is what lets the division of a whole score by
  the square root of 64 be moved, as a factor 1/8, onto each query entry inside the sum.

  Both sides are stated at the kernel's argument arrays; the reference's arguments are rewritten to them by the
  hypothesis that the two memories agree on the arguments.
-/
import proofs.«152040_j65481071397869_2_alg».proof.Defs
import proofs.«152040_j65481071397869_2_alg».proof.Proof.Gen.ReferenceIdeal.Run
import proofs.«152040_j65481071397869_2_alg».proof.Proof.Gen.ReferenceIdeal.Read
import proofs.«152040_j65481071397869_2_alg».proof.Proof.Gen.Pre_finite_inputs
import proofs.«152040_j65481071397869_2_alg».proof.Proof.KernelRun
import proofs.«152040_j65481071397869_2_alg».proof.Proof.OutProj
import proofs.«152040_j65481071397869_2_alg».proof.Proof.HostIn
import proofs.«152040_j65481071397869_2_alg».proof.Proof.Region0
import proofs.«152040_j65481071397869_2_alg».proof.Proof.Region0Math
import proofs.«152040_j65481071397869_2_alg».proof.Proof.RefValue
import proofs.«152040_j65481071397869_2_alg».proof.Proof.Finite

noncomputable section

namespace Cert.Proof.Attention

open Idealize.ShloMosaic Idealize.ShloMosaic.TcCoe Idealize.SL.Sem Cert.Attn

/-- Region 0's output array, at the run's contents, is the specification's concatenated heads (flattened layout). -/
theorem region0_spec (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.V2 m ρ c Cert.KernelIdeal.main_v10 : SF.Idx → EReal)
      = attFlat (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  refine (Cert.KernelIdeal.Region0.V2_out m ρ c).trans ?_
  rw [Cert.KernelIdeal.RunValue.V1_x m ρ c, Cert.KernelIdeal.RunValue.V1_wq m ρ c,
    Cert.KernelIdeal.RunValue.V1_wk m ρ c, Cert.KernelIdeal.RunValue.V1_wv m ρ c]
  exact Cert.KernelIdeal.Region0.G0_spec _ _ _ _

/-- From memories agreeing on the arguments, under the precondition, both idealized programs run and end with the
    result buffer at the specification's result of the argument arrays, the arguments unchanged. -/
theorem algebraic [hK : Cert.KernelIdeal.Facts] [hR : Cert.ReferenceIdeal.Facts] [hP : Cert.Pre_finite_inputs.Facts] :
    Cert.algebraic_KernelIdeal_ReferenceIdeal := by
  intro m ρ m' ρ' hm hagree
  refine ⟨fun c => result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.RunValue.run m ρ)
    exact Cert.KernelIdeal.RunValue.W4_of_attFlat m ρ c _ _ _ _ (region0_spec m ρ c)
  · refine (θ_run Cert.ReferenceIdeal.defs _ _).mono (fun r h c => ⟨(h c).1.trans ?_, (h c).2⟩)
      (Cert.ReferenceIdeal.Value.run (F := Ideal) m' ρ')
    obtain ⟨h0, h1, h2⟩ := Cert.Attn.Fin.finite_of_pre m hm c
    rw [Cert.ReferenceIdeal.Read.val_main_v27_eq, (hagree c).1, (hagree c).2.1, (hagree c).2.2.1, (hagree c).2.2.2.1,
      (hagree c).2.2.2.2]
    exact Cert.Attn.Ref.ref_value _ _ _ _ _ h0 h1 h2

end Cert.Proof.Attention

end
-- ==== Proof.lean ====
/-
  Multi-head attention, kernel against reference, on the extended reals.

  Both programs take activations x of shape [4, 2048, 1024] and four weight matrices of shape [1024, 1024] stored
  [out, in], and return, at (b, s, e),

      sum over f of att (b, s, f / 64, f % 64) * Wo[e, f],
      att (b, s, h, d) = sum over k of softmax-weight (b, h, s, k) * V[b, k, h*64+d],

  where Q, K, V are x times the transposed query, key and value weights, the score of query position s against key
  position k in head h is the sum over the head's 64 columns of Q * K scaled by one over the square root of 64, and
  the weights are the softmax of a row of scores (exponentials of the scores less the row maximum, over their sum).

  The kernel computes this in two regions: one grid point per batch and pair of heads forms the three projections for
  its 128 columns, then eight attention tiles (two heads, four groups of 512 query rows) over all 2048 keys, scaling
  each query entry by the float 0.125 before the product; a second region multiplies the concatenated heads by the
  transposed output weights, 512 rows at a time.  The reference forms the same quantities with whole-array operations
  and divides each score by the square root of 64.

  On the extended reals a change of float format is the identity, a matrix product is the plain sum of products, and a
  reduction is the plain sum or maximum, so the two programs differ only in where the factor 1/8 sits; moving it across
  the sum over the head's columns is distributivity, which holds because under the precondition (every input finite)
  the projections are real numbers.

  The three frame claims are the generated frame runs; the idealization ledger is empty; the value claim is
  Proof/Algebraic.lean over the modules it imports.
-/
import proofs.«152040_j65481071397869_2_alg».proof.Defs
import proofs.«152040_j65481071397869_2_alg».proof.Proof.Gen.Kernel
import proofs.«152040_j65481071397869_2_alg».proof.Proof.Gen.Kernel.Skeleton
import proofs.«152040_j65481071397869_2_alg».proof.Proof.Gen.Kernel.Launch
import proofs.«152040_j65481071397869_2_alg».proof.Proof.Gen.Kernel.Points
import proofs.«152040_j65481071397869_2_alg».proof.Proof.Gen.Kernel.Frame
import proofs.«152040_j65481071397869_2_alg».proof.Proof.Gen.KernelIdeal
import proofs.«152040_j65481071397869_2_alg».proof.Proof.Gen.KernelIdeal.Skeleton
import proofs.«152040_j65481071397869_2_alg».proof.Proof.Gen.KernelIdeal.Launch
import proofs.«152040_j65481071397869_2_alg».proof.Proof.Gen.KernelIdeal.Points
import proofs.«152040_j65481071397869_2_alg».proof.Proof.Gen.KernelIdeal.Frame
import proofs.«152040_j65481071397869_2_alg».proof.Proof.Gen.ReferenceIdeal
import proofs.«152040_j65481071397869_2_alg».proof.Proof.Gen.Pre_finite_inputs
import proofs.«152040_j65481071397869_2_alg».proof.Proof.Gen.ReferenceIdeal.Run
import proofs.«152040_j65481071397869_2_alg».proof.Proof.Gen.ReferenceIdeal.Read
import proofs.«152040_j65481071397869_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Attention.algebraic⟩

end Cert.Proof

end
